-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x80x256x256 : Shape := ⟨4, ![8, 80, 256, 256]⟩
abbrev S_ : Shape := ⟨0, ![]⟩

class Facts : Prop where
  bcast_S_S8x80x256x256 : S_.BroadcastsInDim S8x80x256x256 (![] : Fin 0 → Fin S8x80x256x256.rank)
  reducesTo_S8x80x256x256_S_d0_1_2_3 : S8x80x256x256.ReducesTo [0, 1, 2, 3] S_
  h_S_ : 0 < S_.numel

variable [Facts]

def fn {F : FTy → Type} [FloatOps F] (main_arg0 : FVec F S8x80x256x256 .f32) : IVec S_ 1 :=
  let main_v0 : FVec F S8x80x256x256 .f32 := Host.absf main_arg0
  let main_cst : FVec F S_ .f32 := constant S_ .f32 0x7F800000#32
  let main_v1 : FVec F S8x80x256x256 .f32 := broadcastInDim S8x80x256x256 ![] bcast_S_S8x80x256x256 main_cst
  let main_v2 : IVec S8x80x256x256 1 := cmpf .olt main_v0 main_v1
  let main_c : IVec S_ 1 := constantI S_ 1 1#1
  let main_v3 : IVec S_ 1 := (fun x v => Host.reduce IntOp.andi x v reducesTo_S8x80x256x256_S_d0_1_2_3 h_S_) main_v2 main_c
  main_v3
-- ==== Kernel.lean ====
abbrev S8x80x256x256 : Shape := ⟨4, ![8, 80, 256, 256]⟩
abbrev S640x256x256 : Shape := ⟨3, ![640, 256, 256]⟩
abbrev S32x256x256 : Shape := ⟨3, ![32, 256, 256]⟩
abbrev S1x65x256 : Shape := ⟨3, ![1, 65, 256]⟩
abbrev S65x256 : Shape := ⟨2, ![65, 256]⟩
abbrev S1x256 : Shape := ⟨2, ![1, 256]⟩
abbrev S67x256 : Shape := ⟨2, ![67, 256]⟩
abbrev S64x256 : Shape := ⟨2, ![64, 256]⟩
abbrev S1x64x256 : Shape := ⟨3, ![1, 64, 256]⟩
abbrev S1x66x256 : Shape := ⟨3, ![1, 66, 256]⟩
abbrev S66x256 : Shape := ⟨2, ![66, 256]⟩
abbrev S68x256 : Shape := ⟨2, ![68, 256]⟩

abbrev nBuf : Space → Nat
  | .hbm => 4
  | .vmem => 4
  | .smem => 0
  | _ => 0

abbrev bufTy : (tb : Table) → Fin (tcTables nBuf tb) → BufTy
  | .hbm, ⟨0, _⟩ => ⟨S8x80x256x256, .f32⟩
  | .hbm, ⟨1, _⟩ => ⟨S640x256x256, .f32⟩
  | .hbm, ⟨2, _⟩ => ⟨S640x256x256, .f32⟩
  | .hbm, ⟨3, _⟩ => ⟨S8x80x256x256, .f32⟩
  | .local _ .vmem, ⟨0, _⟩ => ⟨S32x256x256, .f32⟩
  | .local _ .vmem, ⟨1, _⟩ => ⟨S32x256x256, .f32⟩
  | .local _ .vmem, ⟨2, _⟩ => ⟨S32x256x256, .f32⟩
  | .local _ .vmem, ⟨3, _⟩ => ⟨S32x256x256, .f32⟩
  | _, _ => ⟨S8x80x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![20], ![false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg3 : BitVec 32 := Scf.iv c0_i32 c1_i32 k0_t1
  let v1 : Index := Scalar.indexCast arg3
  let c0 : Index := 0#32
  let c0_1 : Index := 0#32
  ![v1.toNat, 0, 0]
def k0_off2 (k0_t1 : Fin k0_t1_loop.trips) : Fin 3 → Nat :=
  let c0_i32 : BitVec 32 := 0#32
  let c1_i32 : BitVec 32 := 1#32
  let arg3 : BitVec 32 := Scf.iv c0_i32 c1_i32 k0_t1
  let v29 : Index := Scalar.indexCast arg3
  let c0_7 : Index := 0#32
  let c0_8 : Index := 0#32
  ![v29.toNat, 0, 0]
def k0_off3 (k0_t1 : Fin k0_t1_loop.trips) : Fin 3 → Nat :=
  let c0_i32 : BitVec 32 := 0#32
  let c1_i32 : BitVec 32 := 1#32
  let arg3 : BitVec 32 := Scf.iv c0_i32 c1_i32 k0_t1
  let v33 : Index := Scalar.indexCast arg3
  let c63 : Index := 63#32
  let c0_9 : Index := 0#32
  ![v33.toNat, 63, 0]
def k0_off4 (k0_t1 : Fin k0_t1_loop.trips) : Fin 3 → Nat :=
  let c0_i32 : BitVec 32 := 0#32
  let c1_i32 : BitVec 32 := 1#32
  let arg3 : BitVec 32 := Scf.iv c0_i32 c1_i32 k0_t1
  let v61 : Index := Scalar.indexCast arg3
  let c64 : Index := 64#32
  let c0_17 : Index := 0#32
  ![v61.toNat, 64, 0]
def k0_off5 (k0_t1 : Fin k0_t1_loop.trips) : Fin 3 → Nat :=
  let c0_i32 : BitVec 32 := 0#32
  let c1_i32 : BitVec 32 := 1#32
  let arg3 : BitVec 32 := Scf.iv c0_i32 c1_i32 k0_t1
  let v65 : Index := Scalar.indexCast arg3
  let c127 : Index := 127#32
  let c0_18 : Index := 0#32
  ![v65.toNat, 127, 0]
def k0_off6 (k0_t1 : Fin k0_t1_loop.trips) : Fin 3 → Nat :=
  let c0_i32 : BitVec 32 := 0#32
  let c1_i32 : BitVec 32 := 1#32
  let arg3 : BitVec 32 := Scf.iv c0_i32 c1_i32 k0_t1
  let v93 : Index := Scalar.indexCast arg3
  let c128 : Index := 128#32
  let c0_26 : Index := 0#32
  ![v93.toNat, 128, 0]
def k0_off7 (k0_t1 : Fin k0_t1_loop.trips) : Fin 3 → Nat :=
  let c0_i32 : BitVec 32 := 0#32
  let c1_i32 : BitVec 32 := 1#32
  let arg3 : BitVec 32 := Scf.iv c0_i32 c1_i32 k0_t1
  let v97 : Index := Scalar.indexCast arg3
  let c191 : Index := 191#32
  let c0_27 : Index := 0#32
  ![v97.toNat, 191, 0]
def k0_off8 (k0_t1 : Fin k0_t1_loop.trips) : Fin 3 → Nat :=
  let c0_i32 : BitVec 32 := 0#32
  let c1_i32 : BitVec 32 := 1#32
  let arg3 : BitVec 32 := Scf.iv c0_i32 c1_i32 k0_t1
  let v125 : Index := Scalar.indexCast arg3
  let c192 : Index := 192#32
  let c0_35 : Index := 0#32
  ![v125.toNat, 192, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8x80x256x256_S640x256x256 : S8x80x256x256.ShapeCasts S640x256x256
  h_S1x65x256 : 0 < S1x65x256.numel
  shapeCasts_S1x65x256_S65x256 : S1x65x256.ShapeCasts S65x256
  iota_S65x256_d1_w32 : S65x256.Iotas .tc 32 [1]
  rotates_S65x256_d1 : S65x256.Rotates 1 none
  slices_S65x256_o0_0_S1x256 : S65x256.Slices ![0, 0] S1x256
  slices_S65x256_o64_0_S1x256 : S65x256.Slices ![64, 0] S1x256
  concatenates_S1x256_S65x256_S1x256_S67x256_d0 : Shape.Concatenates [S1x256, S65x256, S1x256] S67x256 0
  slices_S67x256_o0_0_S64x256 : S67x256.Slices ![0, 0] S64x256
  slices_S67x256_o1_0_S64x256 : S67x256.Slices ![1, 0] S64x256
  slices_S67x256_o2_0_S64x256 : S67x256.Slices ![2, 0] S64x256
  slices_S65x256_o0_0_S64x256 : S65x256.Slices ![0, 0] S64x256
  h_S1x64x256 : 0 < S1x64x256.numel
  shapeCasts_S1x64x256_S64x256 : S1x64x256.ShapeCasts S64x256
  shapeCasts_S64x256_S1x64x256 : S64x256.ShapeCasts S1x64x256
  h_S1x66x256 : 0 < S1x66x256.numel
  shapeCasts_S1x66x256_S66x256 : S1x66x256.ShapeCasts S66x256
  iota_S66x256_d1_w32 : S66x256.Iotas .tc 32 [1]
  rotates_S66x256_d1 : S66x256.Rotates 1 none
  slices_S66x256_o0_0_S1x256 : S66x256.Slices ![0, 0] S1x256
  slices_S66x256_o65_0_S1x256 : S66x256.Slices ![65, 0] S1x256
  concatenates_S1x256_S66x256_S1x256_S68x256_d0 : Shape.Concatenates [S1x256, S66x256, S1x256] S68x256 0
  slices_S68x256_o1_0_S64x256 : S68x256.Slices ![1, 0] S64x256
  slices_S68x256_o2_0_S64x256 : S68x256.Slices ![2, 0] S64x256
  slices_S68x256_o3_0_S64x256 : S68x256.Slices ![3, 0] S64x256
  slices_S66x256_o1_0_S64x256 : S66x256.Slices ![1, 0] S64x256
  slices_S67x256_o3_0_S64x256 : S67x256.Slices ![3, 0] S64x256
  slices_S65x256_o1_0_S64x256 : S65x256.Slices ![1, 0] S64x256
  shapeCasts_S640x256x256_S8x80x256x256 : S640x256x256.ShapeCasts S8x80x256x256
  hrank0 : 0 < grid0.rank
  k0_t1_ok : k0_t1_loop.OK
  k0_off1_inb : ∀ k0_t1 : Fin k0_t1_loop.trips, ∀ a, (k0_off1 k0_t1) a + S1x65x256.size a ≤ S32x256x256.size a
  k0_off2_inb : ∀ k0_t1 : Fin k0_t1_loop.trips, ∀ a, (k0_off2 k0_t1) a + S1x64x256.size a ≤ S32x256x256.size a
  k0_off3_inb : ∀ k0_t1 : Fin k0_t1_loop.trips, ∀ a, (k0_off3 k0_t1) a + S1x66x256.size a ≤ S32x256x256.size a
  k0_off4_inb : ∀ k0_t1 : Fin k0_t1_loop.trips, ∀ a, (k0_off4 k0_t1) a + S1x64x256.size a ≤ S32x256x256.size a
  k0_off5_inb : ∀ k0_t1 : Fin k0_t1_loop.trips, ∀ a, (k0_off5 k0_t1) a + S1x66x256.size a ≤ S32x256x256.size a
  k0_off6_inb : ∀ k0_t1 : Fin k0_t1_loop.trips, ∀ a, (k0_off6 k0_t1) a + S1x64x256.size a ≤ S32x256x256.size a
  k0_off7_inb : ∀ k0_t1 : Fin k0_t1_loop.trips, ∀ a, (k0_off7 k0_t1) a + S1x65x256.size a ≤ S32x256x256.size a
  k0_off8_inb : ∀ k0_t1 : Fin k0_t1_loop.trips, ∀ a, (k0_off8 k0_t1) a + S1x64x256.size a ≤ S32x256x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x256.size a ≤ S640x256x256.size a
  hwx0_0 : ∀ i : grid0.Coords, EltTy.bits .f32 = 32 ∨ (Rect.block (s := S640x256x256) S32x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256x256.size a ≤ S640x256x256.size a
  hwx0_1 : ∀ i : grid0.Coords, EltTy.bits .f32 = 32 ∨ (Rect.block (s := S640x256x256) S32x256x256.size (cc0_transform_1 i) (hinb0_1 i)).WholeWords (EltTy.packing .f32)

variable [Facts₀]

abbrev win0_0 : Pipeline.Window sig grid0 :=
  Pipeline.Window.ofSpec (Memref.whole main_v0) S32x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x80x256x256 : Shape := ⟨4, ![8, 80, 256, 256]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8x80x256x256, .f32⟩
  | .hbm, ⟨1, _⟩ => ⟨S_, .f32⟩
  | .hbm, ⟨2, _⟩ => ⟨S_, .f32⟩
  | .hbm, ⟨3, _⟩ => ⟨S8x80x256x256, .f32⟩
  | .hbm, ⟨4, _⟩ => ⟨S8x80x256x256, .i1⟩
  | .hbm, ⟨5, _⟩ => ⟨S8x80x256x256, .f32⟩
  | .hbm, ⟨6, _⟩ => ⟨S8x80x256x256, .f32⟩
  | _, _ => ⟨S8x80x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S8x80x256x256_S8x80x256x256_w1s1p0_0_w1s1p0_0_w3s1p1_1_w3s1p1_1 : S8x80x256x256.ReduceWindows (![1, 1, 3, 3] : Fin 4 → Nat) ![1, 1, 1, 1] ![0, 0, 1, 1] ![0, 0, 1, 1] S8x80x256x256
  h_S_ : 0 < S_.numel

variable [Facts₀]

class Facts : Prop extends Facts₀ where

variable [Facts]
-- ==== Proof.TripsBits.lean ====
/-
  What one plane's pass of the body stores, and what the whole loop over a block's planes stores.

  A trip of the loop over the 32 planes of a block handles plane `k`: it loads four overlapping row slabs of the
  plane from the input block — rows 0–64, 63–128, 127–192 and 191–255, each 64-row slab with the rows just above and
  below it that exist — and stores four 64-row slabs of the output block, rows 0–63, 64–127, 128–191 and 192–255 of
  plane `k`, each the filter's payload of the corresponding loaded slab. The values it also loads from the output
  buffer are used by nothing, so the stored pieces are functions of the input block alone, whatever the output buffer
  held before: that is `tripL_eq`, read once off the trip's run, and `pb_eq`, the same for all trips before a given
  one. Together the trips store 128 slabs that tile the output block.
-/
import proofs.«151072_g90855738179815_cont_sun_c4_584_9_alg».proof.Proof.Gen.Kernel.Loops

set_option maxRecDepth 16384

noncomputable section

namespace Cert.Kernel.Trips

open Cert.Kernel Cert.Kernel.Gen
open Idealize.ShloMosaic Idealize.ShloMosaic.TcCoe Idealize.ShloMosaic.Tactic Idealize.SL.Sem

variable {F : FTy → Type} [FloatOps F]

/-- The four slabs plane `k`'s trip stores, last store first: rows 192–255, 128–191, 64–127, 0–63 of plane `k`. -/
def tripPieces (arg1 : Memref sig .tc .vmem S32x256x256 .f32) (X : BufTy.Contents (Elt F) arg1.view.ty)
    (k : Fin k0_t1_loop.trips) : List (View.Piece (Elt F) S32x256x256 .f32) :=
  [⟨Rect.unit (s := S32x256x256) (k0_off8 k) S1x64x256.size (Gen.k0_off8_inb k),
      k0_pay2 (View.readAt (Elt F) arg1.view (Rect.unit (s := S32x256x256) (k0_off7 k) S1x65x256.size (Gen.k0_off7_inb k)).toLoadRect X)⟩,
   ⟨Rect.unit (s := S32x256x256) (k0_off6 k) S1x64x256.size (Gen.k0_off6_inb k),
      k0_pay1
        (k0_pay7 (View.readAt (Elt F) arg1.view (Rect.unit (s := S32x256x256) (k0_off5 k) S1x66x256.size (Gen.k0_off5_inb k)).toLoadRect X))
        (k0_pay9 (View.readAt (Elt F) arg1.view (Rect.unit (s := S32x256x256) (k0_off5 k) S1x66x256.size (Gen.k0_off5_inb k)).toLoadRect X))
        (k0_pay10 (View.readAt (Elt F) arg1.view (Rect.unit (s := S32x256x256) (k0_off5 k) S1x66x256.size (Gen.k0_off5_inb k)).toLoadRect X))⟩,
   ⟨Rect.unit (s := S32x256x256) (k0_off4 k) S1x64x256.size (Gen.k0_off4_inb k),
      k0_pay6
        (k0_pay4 (View.readAt (Elt F) arg1.view (Rect.unit (s := S32x256x256) (k0_off3 k) S1x66x256.size (Gen.k0_off3_inb k)).toLoadRect X))
        (iota .tc S66x256 32 [1] Gen.iota_S66x256_d1_w32)
        (k0_pay5 (View.readAt (Elt F) arg1.view (Rect.unit (s := S32x256x256) (k0_off3 k) S1x66x256.size (Gen.k0_off3_inb k)).toLoadRect X))
        255#32⟩,
   ⟨Rect.unit (s := S32x256x256) (k0_off2 k) S1x64x256.size (Gen.k0_off2_inb k),
      k0_pay3 (View.readAt (Elt F) arg1.view (Rect.unit (s := S32x256x256) (k0_off1 k) S1x65x256.size (Gen.k0_off1_inb k)).toLoadRect X)⟩]

/-- A trip's pieces, whatever the output buffer held: the trip's run opened, once. -/
theorem tripL_eq (𝒱 : Variants) (c : Dev nD) (bd : Option 𝒱.V) (i : grid0.Coords)
    (arg1 : Memref sig .tc .vmem S32x256x256 .f32) (harg1 : arg1.IsWhole)
    (arg2 : Memref sig .tc .vmem S32x256x256 .f32) (harg2 : arg2.IsWhole)
    (X : BufTy.Contents (Elt F) arg1.view.ty) (k : Fin k0_t1_loop.trips) (f : BufTy.Contents (Elt F) arg2.view.ty) :
    tripL_k0_t1 (F := F) 𝒱 c bd i arg1 harg1 arg2 harg2 X k f = tripPieces arg1 X k := by
  unfold tripL_k0_t1 trip_k0_t1
  rfl

/-- The pieces of the trips before `n`, last store first. -/
def allPieces (arg1 : Memref sig .tc .vmem S32x256x256 .f32) (X : BufTy.Contents (Elt F) arg1.view.ty) :
    ℕ → List (View.Piece (Elt F) S32x256x256 .f32)
  | 0 => []
  | k + 1 => if h : k < k0_t1_loop.trips then tripPieces arg1 X ⟨k, h⟩ ++ allPieces arg1 X k else allPieces arg1 X k

/-- The loop's pieces before trip `n` do not depend on what the output buffer held at loop entry. -/
theorem pb_eq (𝒱 : Variants) (c : Dev nD) (bd : Option 𝒱.V) (i : grid0.Coords)
    (arg1 : Memref sig .tc .vmem S32x256x256 .f32) (harg1 : arg1.IsWhole)
    (arg2 : Memref sig .tc .vmem S32x256x256 .f32) (harg2 : arg2.IsWhole)
    (X : BufTy.Contents (Elt F) arg1.view.ty) (G : BufTy.Contents (Elt F) arg2.view.ty) :
    ∀ n : ℕ, pb_k0_t1 (F := F) 𝒱 c bd i arg1 harg1 arg2 harg2 X G n = allPieces arg1 X n
  | 0 => by rw [pb_k0_t1.eq_1]; rfl
  | k + 1 => by
    rw [pb_k0_t1.eq_2, pb_eq 𝒱 c bd i arg1 harg1 arg2 harg2 X G k]
    unfold pb_k0_t1Step
    show _ = if h : k < k0_t1_loop.trips then tripPieces arg1 X ⟨k, h⟩ ++ allPieces arg1 X k else allPieces arg1 X k
    by_cases h : k < k0_t1_loop.trips
    · rw [dif_pos h, dif_pos h, tripL_eq]
    · rw [dif_neg h, dif_neg h]

end Cert.Kernel.Trips

end
-- ==== Proof.TripsIdeal.lean ====
/-
  What one plane's pass of the body stores, and what the whole loop over a block's planes stores.

  A trip of the loop over the 32 planes of a block handles plane `k`: it loads four overlapping row slabs of the
  plane from the input block — rows 0–64, 63–128, 127–192 and 191–255, each 64-row slab with the rows just above and
  below it that exist — and stores four 64-row slabs of the output block, rows 0–63, 64–127, 128–191 and 192–255 of
  plane `k`, each the filter's payload of the corresponding loaded slab. The values it also loads from the output
  buffer are used by nothing, so the stored pieces are functions of the input block alone, whatever the output buffer
  held before: that is `tripL_eq`, read once off the trip's run, and `pb_eq`, the same for all trips before a given
  one. Together the trips store 128 slabs that tile the output block.
-/
import proofs.«151072_g90855738179815_cont_sun_c4_584_9_alg».proof.Proof.Gen.KernelIdeal.Loops

set_option maxRecDepth 16384

noncomputable section

namespace Cert.KernelIdeal.Trips

open Cert.KernelIdeal Cert.KernelIdeal.Gen
open Idealize.ShloMosaic Idealize.ShloMosaic.TcCoe Idealize.ShloMosaic.Tactic Idealize.SL.Sem

variable {F : FTy → Type} [FloatOps F]

/-- The four slabs plane `k`'s trip stores, last store first: rows 192–255, 128–191, 64–127, 0–63 of plane `k`. -/
def tripPieces (arg1 : Memref sig .tc .vmem S32x256x256 .f32) (X : BufTy.Contents (Elt F) arg1.view.ty)
    (k : Fin k0_t1_loop.trips) : List (View.Piece (Elt F) S32x256x256 .f32) :=
  [⟨Rect.unit (s := S32x256x256) (k0_off8 k) S1x64x256.size (Gen.k0_off8_inb k),
      k0_pay2 (View.readAt (Elt F) arg1.view (Rect.unit (s := S32x256x256) (k0_off7 k) S1x65x256.size (Gen.k0_off7_inb k)).toLoadRect X)⟩,
   ⟨Rect.unit (s := S32x256x256) (k0_off6 k) S1x64x256.size (Gen.k0_off6_inb k),
      k0_pay1
        (k0_pay7 (View.readAt (Elt F) arg1.view (Rect.unit (s := S32x256x256) (k0_off5 k) S1x66x256.size (Gen.k0_off5_inb k)).toLoadRect X))
        (k0_pay9 (View.readAt (Elt F) arg1.view (Rect.unit (s := S32x256x256) (k0_off5 k) S1x66x256.size (Gen.k0_off5_inb k)).toLoadRect X))
        (k0_pay10 (View.readAt (Elt F) arg1.view (Rect.unit (s := S32x256x256) (k0_off5 k) S1x66x256.size (Gen.k0_off5_inb k)).toLoadRect X))⟩,
   ⟨Rect.unit (s := S32x256x256) (k0_off4 k) S1x64x256.size (Gen.k0_off4_inb k),
      k0_pay6
        (k0_pay4 (View.readAt (Elt F) arg1.view (Rect.unit (s := S32x256x256) (k0_off3 k) S1x66x256.size (Gen.k0_off3_inb k)).toLoadRect X))
        (iota .tc S66x256 32 [1] Gen.iota_S66x256_d1_w32)
        (k0_pay5 (View.readAt (Elt F) arg1.view (Rect.unit (s := S32x256x256) (k0_off3 k) S1x66x256.size (Gen.k0_off3_inb k)).toLoadRect X))
        255#32⟩,
   ⟨Rect.unit (s := S32x256x256) (k0_off2 k) S1x64x256.size (Gen.k0_off2_inb k),
      k0_pay3 (View.readAt (Elt F) arg1.view (Rect.unit (s := S32x256x256) (k0_off1 k) S1x65x256.size (Gen.k0_off1_inb k)).toLoadRect X)⟩]

/-- A trip's pieces, whatever the output buffer held: the trip's run opened, once. -/
theorem tripL_eq (𝒱 : Variants) (c : Dev nD) (bd : Option 𝒱.V) (i : grid0.Coords)
    (arg1 : Memref sig .tc .vmem S32x256x256 .f32) (harg1 : arg1.IsWhole)
    (arg2 : Memref sig .tc .vmem S32x256x256 .f32) (harg2 : arg2.IsWhole)
    (X : BufTy.Contents (Elt F) arg1.view.ty) (k : Fin k0_t1_loop.trips) (f : BufTy.Contents (Elt F) arg2.view.ty) :
    tripL_k0_t1 (F := F) 𝒱 c bd i arg1 harg1 arg2 harg2 X k f = tripPieces arg1 X k := by
  unfold tripL_k0_t1 trip_k0_t1
  rfl

/-- The pieces of the trips before `n`, last store first. -/
def allPieces (arg1 : Memref sig .tc .vmem S32x256x256 .f32) (X : BufTy.Contents (Elt F) arg1.view.ty) :
    ℕ → List (View.Piece (Elt F) S32x256x256 .f32)
  | 0 => []
  | k + 1 => if h : k < k0_t1_loop.trips then tripPieces arg1 X ⟨k, h⟩ ++ allPieces arg1 X k else allPieces arg1 X k

/-- The loop's pieces before trip `n` do not depend on what the output buffer held at loop entry. -/
theorem pb_eq (𝒱 : Variants) (c : Dev nD) (bd : Option 𝒱.V) (i : grid0.Coords)
    (arg1 : Memref sig .tc .vmem S32x256x256 .f32) (harg1 : arg1.IsWhole)
    (arg2 : Memref sig .tc .vmem S32x256x256 .f32) (harg2 : arg2.IsWhole)
    (X : BufTy.Contents (Elt F) arg1.view.ty) (G : BufTy.Contents (Elt F) arg2.view.ty) :
    ∀ n : ℕ, pb_k0_t1 (F := F) 𝒱 c bd i arg1 harg1 arg2 harg2 X G n = allPieces arg1 X n
  | 0 => by rw [pb_k0_t1.eq_1]; rfl
  | k + 1 => by
    rw [pb_k0_t1.eq_2, pb_eq 𝒱 c bd i arg1 harg1 arg2 harg2 X G k]
    unfold pb_k0_t1Step
    show _ = if h : k < k0_t1_loop.trips then tripPieces arg1 X ⟨k, h⟩ ++ allPieces arg1 X k else allPieces arg1 X k
    by_cases h : k < k0_t1_loop.trips
    · rw [dif_pos h, dif_pos h, tripL_eq]
    · rw [dif_neg h, dif_neg h]

end Cert.KernelIdeal.Trips

end
-- ==== Proof.Spec.lean ====
/-
  The specification: non-maximum suppression by a 3×3 maximum filter, as one function of a plane.

  A plane is read through a PADDED reader `q : ℕ → ℕ → EReal`: `q R C` is the plane's entry at row `R − 1` and column
  `C − 1` for `1 ≤ R, C ≤ 256` and −∞ outside, so that the 3×3 neighbourhood of the entry `(r, c)` is `q` at rows
  `r, r + 1, r + 2` and columns `c, c + 1, c + 2`, the entry itself `q (r + 1) (c + 1)`. The filter keeps an entry that
  equals the maximum of its neighbourhood and writes zero elsewhere. The maximum of the nine is taken row by row
  (`rowMax`, then `winMax`); on the extended reals `max` is associative, commutative and idempotent with −∞ its
  identity, so every other order, every duplicated term and every −∞ pad gives the same value: those are the only
  laws that join the kernel's separable, edge-clamped maximum to the reference's window fold.
-/
import Idealize.ShloMosaic.PureOps.Ideal
import Idealize.ShloMosaic.Lib.ValueIdx

noncomputable section

namespace Cert.Nms

open Idealize.ShloMosaic Idealize.ShloMosaic.ValueIdx

/-- The maximum of the three neighbours in padded row `R` around column `c`. -/
def rowMax (q : ℕ → ℕ → EReal) (R c : ℕ) : EReal := max (max (q R c) (q R (c + 1))) (q R (c + 2))

/-- The maximum of the 3×3 neighbourhood of the entry `(r, c)`. -/
def winMax (q : ℕ → ℕ → EReal) (r c : ℕ) : EReal := max (max (rowMax q r c) (rowMax q (r + 1) c)) (rowMax q (r + 2) c)

/-- The filter at the entry `(r, c)`: the entry where it is its neighbourhood's maximum, zero elsewhere. -/
def keepAt (q : ℕ → ℕ → EReal) (r c : ℕ) : EReal :=
  if winMax q r c = q (r + 1) (c + 1) then q (r + 1) (c + 1) else 0

/-- A padded row that is −∞ throughout contributes −∞. -/
theorem rowMax_bot (q : ℕ → ℕ → EReal) (R c : ℕ) (h : ∀ C, q R C = ⊥) : rowMax q R c = ⊥ := by
  unfold rowMax; rw [h, h, h]; simp

/-- The window fold in row-major order from −∞ is the neighbourhood's maximum. -/
theorem fold9_eq_winMax (q : ℕ → ℕ → EReal) (r c : ℕ) :
    max (max (max (max (max (max (max (max (max ⊥ (q r c)) (q r (c + 1))) (q r (c + 2))) (q (r + 1) c)) (q (r + 1) (c + 1)))
      (q (r + 1) (c + 2))) (q (r + 2) c)) (q (r + 2) (c + 1))) (q (r + 2) (c + 2)) = winMax q r c := by
  unfold winMax rowMax
  simp only [max_bot_left, max_assoc]

/-- At the top edge the row above is the first row once more: the same maximum as with a −∞ row above. -/
theorem winMax_top (q : ℕ → ℕ → EReal) (c : ℕ) (h : ∀ C, q 0 C = ⊥) :
    max (max (rowMax q 1 c) (rowMax q 1 c)) (rowMax q 2 c) = winMax q 0 c := by
  unfold winMax
  rw [rowMax_bot q 0 c h, max_self, max_bot_left]

/-- At the bottom edge the row below is the last row once more: the same maximum as with a −∞ row below. -/
theorem winMax_bottom (q : ℕ → ℕ → EReal) (c : ℕ) (h : ∀ C, q 257 C = ⊥) :
    max (max (rowMax q 255 c) (rowMax q 256 c)) (rowMax q 256 c) = winMax q 255 c := by
  unfold winMax
  rw [rowMax_bot q 257 c h, max_assoc, max_self, max_bot_right]

/-- Plane `p` of a stack of 256×256 planes, read at padded coordinates. -/
def padPlane {P : ℕ} (B : (⟨3, ![P, 256, 256]⟩ : Shape).Idx → EReal) (p : Fin P) (R C : ℕ) : EReal :=
  if h : (1 ≤ R ∧ R - 1 < 256) ∧ (1 ≤ C ∧ C - 1 < 256) then B (ix3 p ⟨R - 1, h.1.2⟩ ⟨C - 1, h.2.2⟩) else ⊥

theorem padPlane_row0 {P : ℕ} (B : (⟨3, ![P, 256, 256]⟩ : Shape).Idx → EReal) (p : Fin P) (C : ℕ) :
    padPlane B p 0 C = ⊥ := by
  unfold padPlane; rw [dif_neg (by omega)]

theorem padPlane_row257 {P : ℕ} (B : (⟨3, ![P, 256, 256]⟩ : Shape).Idx → EReal) (p : Fin P) (C : ℕ) :
    padPlane B p 257 C = ⊥ := by
  unfold padPlane; rw [dif_neg (by omega)]

/-- The padded reader at an inside position is the plane's entry. -/
theorem padPlane_inside {P : ℕ} (B : (⟨3, ![P, 256, 256]⟩ : Shape).Idx → EReal) (p : Fin P) (r c : Fin 256) :
    padPlane B p (r.val + 1) (c.val + 1) = B (ix3 p r c) := by
  have hr := r.isLt
  have hc := c.isLt
  unfold padPlane
  rw [dif_pos ⟨⟨by omega, by omega⟩, ⟨by omega, by omega⟩⟩]
  exact congrArg B (by
    funext a
    match a with
    | ⟨0, _⟩ => rfl
    | ⟨1, _⟩ => exact Fin.ext (by show r.val + 1 - 1 = r.val; omega)
    | ⟨2, _⟩ => exact Fin.ext (by show c.val + 1 - 1 = c.val; omega))

/-- THE FILTER on a stack of planes: every plane filtered on its own. -/
def nms {P : ℕ} (B : (⟨3, ![P, 256, 256]⟩ : Shape).Idx → EReal) : (⟨3, ![P, 256, 256]⟩ : Shape).Idx → EReal :=
  fun j => keepAt (padPlane B (j 0)) (j 1).val (j 2).val

theorem nms_apply {P : ℕ} (B : (⟨3, ![P, 256, 256]⟩ : Shape).Idx → EReal) (p : Fin P) (r c : Fin 256) :
    nms B (ix3 p r c) = keepAt (padPlane B p) r.val c.val := rfl

end Cert.Nms

end
-- ==== Proof.LibEdgeMax.lean ====
/-
  Two vector idioms of a separable 3×3 maximum filter, read at an index at the ideal instance.

  * THE LANE MAXIMUM. For a slab `x` of `H` rows and 256 lanes, the maximum of `x`, of `x` rotated one lane up with
    −∞ written over lane 0, and of `x` rotated one lane down (a rotation by 255) with −∞ written over lane 255, is at
    `(l, c)` the maximum of the three neighbours `c − 1, c, c + 1` of row `l` that exist: in PADDED lane coordinates
    (lane `C` of the padded row is lane `C − 1` of the row for `1 ≤ C ≤ 256` and −∞ otherwise) it is the maximum of
    the padded row at `c, c + 1, c + 2`.
  * THE DUPLICATED EDGE ROWS. The concatenation, along the rows, of the first row, the slab and the last row reads
    at row `k` the slab's row `k − 1`, clamped into the slab: row 0 twice at the top, row `H − 1` twice at the bottom.
-/
import Idealize.ShloMosaic.PureOps.Ideal
import Idealize.ShloMosaic.Lib.ValueIdx
import Idealize.ShloMosaic.Lib.Pipeline.Value
import Idealize.ShloMosaic.Lib.KernelVsHost
import Idealize.ShloMosaic.Lib.Affine

noncomputable section

namespace Cert.LibEdgeMax

open Idealize.ShloMosaic Idealize.ShloMosaic.ValueIdx

/-- Row `l` of a slab read at a PADDED lane coordinate: lane `C − 1` for `1 ≤ C ≤ 256`, −∞ outside. -/
def padLane {H : ℕ} (x : (⟨2, ![H, 256]⟩ : Shape).Idx → EReal) (l : Fin H) (C : ℕ) : EReal :=
  if h : 1 ≤ C ∧ C - 1 < 256 then x (ix2 l ⟨C - 1, h.2⟩) else ⊥

/-- Padded lane `c + 1` is lane `c`. -/
theorem padLane_succ {H : ℕ} (x : (⟨2, ![H, 256]⟩ : Shape).Idx → EReal) (l : Fin H) (c : Fin 256) :
    padLane x l (c.val + 1) = x (ix2 l c) := by
  have hc := c.isLt
  unfold padLane
  rw [dif_pos ⟨by omega, by omega⟩]
  exact congrArg x (congrArg (ix2 l) (Fin.ext (by show c.val + 1 - 1 = c.val; omega)))

theorem ofNat_eq_zero_iff (c : Fin 256) : BitVec.ofNat 32 c.val = 0#32 ↔ c.val = 0 := by
  constructor
  · intro h
    have := congrArg BitVec.toNat h
    simp only [BitVec.toNat_ofNat, BitVec.toNat_zero] at this
    have hc := c.isLt
    omega
  · intro h; rw [h]

theorem ofNat_eq_255_iff (c : Fin 256) : BitVec.ofNat 32 c.val = 255#32 ↔ c.val = 255 := by
  constructor
  · intro h
    have := congrArg BitVec.toNat h
    simp only [BitVec.toNat_ofNat] at this
    have hc := c.isLt
    omega
  · intro h; rw [h]

/-- THE LANE MAXIMUM at an index. -/
theorem laneMax_apply {H : ℕ} (x : FVec Ideal ⟨2, ![H, 256]⟩ .f32)
    (hi : (⟨2, ![H, 256]⟩ : Shape).Iotas .tc 32 [1]) (hr : (⟨2, ![H, 256]⟩ : Shape).Rotates 1 none)
    (l : Fin H) (c : Fin 256) :
    maximumf (maximumf
        (select (cmpi .eq (iota .tc ⟨2, ![H, 256]⟩ 32 [1] hi) (broadcast ⟨2, ![H, 256]⟩ 0#32))
          (broadcast ⟨2, ![H, 256]⟩ (Scalar.ofBits (F := Ideal) .f32 0xFF800000#32)) (dynamicRotate 1 1#32 none x hr)) x)
        (select (cmpi .eq (iota .tc ⟨2, ![H, 256]⟩ 32 [1] hi) (broadcast ⟨2, ![H, 256]⟩ 255#32))
          (broadcast ⟨2, ![H, 256]⟩ (Scalar.ofBits (F := Ideal) .f32 0xFF800000#32)) (dynamicRotate 1 255#32 none x hr))
        (ix2 l c)
      = max (max (padLane x l c.val) (padLane x l (c.val + 1))) (padLane x l (c.val + 2)) := by
  have hc := c.isLt
  have hbot : Scalar.ofBits (F := Ideal) .f32 0xFF800000#32 = (⊥ : EReal) := by
    show Ideal.ofBits .f32 0xFF800000#32 = ⊥
    simp [Ideal.ofBits, Ideal.ieee]
  -- the two rotations at (l, c): lanes c − 1 and c + 1, around the end
  have hrot1 : dynamicRotate 1 1#32 none x hr (ix2 l c) = x (ix2 l ⟨(c.val + 256 - 1) % 256, Nat.mod_lt _ (by omega)⟩) :=
    dynamicRotate_apply 1 1#32 x hr (ix2 l c) _ (fun b => by
      match b with
      | ⟨0, _⟩ => rfl
      | ⟨1, _⟩ => rfl)
  have hrot2 : dynamicRotate 1 255#32 none x hr (ix2 l c) = x (ix2 l ⟨(c.val + 256 - 255) % 256, Nat.mod_lt _ (by omega)⟩) :=
    dynamicRotate_apply 1 255#32 x hr (ix2 l c) _ (fun b => by
      match b with
      | ⟨0, _⟩ => rfl
      | ⟨1, _⟩ => rfl)
  rw [maximumf_apply, maximumf_apply, select_apply, select_apply, hrot1, hrot2]
  simp only [broadcast_apply, hbot]
  have hio : iota .tc ⟨2, ![H, 256]⟩ 32 [1] hi (ix2 l c) = BitVec.ofNat 32 c.val := iota_single_apply .tc _ 32 1 hi (ix2 l c)
  have hcm0 : cmpi .eq (iota .tc ⟨2, ![H, 256]⟩ 32 [1] hi) (broadcast ⟨2, ![H, 256]⟩ 0#32) (ix2 l c)
      = IntOp.cmpi .eq (BitVec.ofNat 32 c.val) 0#32 := by
    show IntOp.cmpi .eq (iota .tc ⟨2, ![H, 256]⟩ 32 [1] hi (ix2 l c)) _ = _
    rw [hio]; rfl
  have hcm255 : cmpi .eq (iota .tc ⟨2, ![H, 256]⟩ 32 [1] hi) (broadcast ⟨2, ![H, 256]⟩ 255#32) (ix2 l c)
      = IntOp.cmpi .eq (BitVec.ofNat 32 c.val) 255#32 := by
    show IntOp.cmpi .eq (iota .tc ⟨2, ![H, 256]⟩ 32 [1] hi (ix2 l c)) _ = _
    rw [hio]; rfl
  rw [hcm0, hcm255]
  -- the middle tap
  have hmid : padLane x l (c.val + 1) = x (ix2 l c) := by
    unfold padLane
    rw [dif_pos ⟨by omega, by omega⟩]
    exact congrArg x (congrArg (ix2 l) (Fin.ext (by show c.val + 1 - 1 = c.val; omega)))
  -- the left tap
  have hleft : Scalar.select (IntOp.cmpi .eq (BitVec.ofNat 32 c.val) 0#32) (⊥ : EReal)
      (x (ix2 l ⟨(c.val + 256 - 1) % 256, Nat.mod_lt _ (by omega)⟩)) = padLane x l c.val := by
    unfold padLane
    by_cases h0 : c.val = 0
    · have : IntOp.cmpi .eq (BitVec.ofNat 32 c.val) 0#32 = 1#1 := by
        rw [h0]; rfl
      rw [this, select_one, dif_neg (by omega)]
    · have : IntOp.cmpi .eq (BitVec.ofNat 32 c.val) 0#32 = 0#1 := by
        apply eq_zero_of_ne_one
        intro h1
        have : BitVec.ofNat 32 c.val = 0#32 := IntOp.cmpi_eq.1 h1
        exact h0 ((ofNat_eq_zero_iff c).1 this)
      rw [this, select_zero, dif_pos ⟨by omega, by omega⟩]
      exact congrArg x (congrArg (ix2 l) (Fin.ext (by show (c.val + 256 - 1) % 256 = c.val - 1; omega)))
  -- the right tap
  have hright : Scalar.select (IntOp.cmpi .eq (BitVec.ofNat 32 c.val) 255#32) (⊥ : EReal)
      (x (ix2 l ⟨(c.val + 256 - 255) % 256, Nat.mod_lt _ (by omega)⟩)) = padLane x l (c.val + 2) := by
    unfold padLane
    by_cases h0 : c.val = 255
    · have : IntOp.cmpi .eq (BitVec.ofNat 32 c.val) 255#32 = 1#1 := by
        rw [h0]; rfl
      rw [this, select_one, dif_neg (by omega)]
    · have : IntOp.cmpi .eq (BitVec.ofNat 32 c.val) 255#32 = 0#1 := by
        apply eq_zero_of_ne_one
        intro h1
        have : BitVec.ofNat 32 c.val = 255#32 := IntOp.cmpi_eq.1 h1
        exact h0 ((ofNat_eq_255_iff c).1 this)
      rw [this, select_zero, dif_pos ⟨by omega, by omega⟩]
      exact congrArg x (congrArg (ix2 l) (Fin.ext (by show (c.val + 256 - 255) % 256 = c.val + 2 - 1; omega)))
  rw [hleft, hright, hmid]

/-- THE DUPLICATED EDGE ROWS at an index: row `k` of `[first row, slab, last row]` is the slab's row `k − 1` clamped into the
    slab (`L = H − 1` is the last row). -/
theorem dupRows_apply {α : Type} {H H2 L : ℕ} (hH2 : H2 = H + 2) (hL : L + 1 = H)
    (y : (⟨2, ![H, 256]⟩ : Shape).Idx → α)
    (hs0 : (⟨2, ![H, 256]⟩ : Shape).Slices ![0, 0] ⟨2, ![1, 256]⟩)
    (hs1 : (⟨2, ![H, 256]⟩ : Shape).Slices ![L, 0] ⟨2, ![1, 256]⟩)
    (hc : Shape.Concatenates [(⟨2, ![1, 256]⟩ : Shape), ⟨2, ![H, 256]⟩, ⟨2, ![1, 256]⟩] ⟨2, ![H2, 256]⟩ 0)
    (k : Fin H2) (c : Fin 256) :
    concatenate ⟨2, ![H2, 256]⟩ 0
        [⟨⟨2, ![1, 256]⟩, extractStridedSlice ⟨2, ![1, 256]⟩ ![0, 0] y hs0⟩, ⟨⟨2, ![H, 256]⟩, y⟩,
          ⟨⟨2, ![1, 256]⟩, extractStridedSlice ⟨2, ![1, 256]⟩ ![L, 0] y hs1⟩] hc (ix2 k c)
      = y (ix2 ⟨min (k.val - 1) L, by omega⟩ c) := by
  have hk := k.isLt
  let xs : List ((s : Shape) × (s.Idx → α)) :=
    [⟨⟨2, ![1, 256]⟩, extractStridedSlice ⟨2, ![1, 256]⟩ ![0, 0] y hs0⟩, ⟨⟨2, ![H, 256]⟩, y⟩, ⟨⟨2, ![1, 256]⟩, extractStridedSlice ⟨2, ![1, 256]⟩ ![L, 0] y hs1⟩]
  show concatenate ⟨2, ![H2, 256]⟩ 0 xs hc (ix2 k c) = _
  by_cases h0 : k.val = 0
  · -- the first row, once more
    refine (concatenate_apply_piece (t := ⟨2, ![H2, 256]⟩) (0 : Fin 2) xs hc (ix2 k c) 0 (by show 0 < 3; omega) ⟨2, ![1, 256]⟩ _ rfl rfl 0 rfl
      (ix2 (0 : Fin 1) c) (fun b => match b with
        | ⟨0, _⟩ => fun h => absurd rfl h
        | ⟨1, _⟩ => fun _ => rfl) (by show 0 + 0 = k.val; omega)).trans ?_
    refine (extractStridedSlice_apply ![0, 0] y hs0 (ix2 (0 : Fin 1) c) (ix2 (⟨0, by omega⟩ : Fin H) c) (fun a =>
      match a with
      | ⟨0, _⟩ => rfl
      | ⟨1, _⟩ => by show c.val = 0 + c.val; omega)).trans ?_
    exact congrArg y (congrArg (fun r => ix2 r c) (Fin.ext (by show 0 = min (k.val - 1) L; omega)))
  · by_cases h1 : k.val ≤ H
    · -- the slab itself, one row down
      refine (concatenate_apply_piece (t := ⟨2, ![H2, 256]⟩) (0 : Fin 2) xs hc (ix2 k c) 1 (by show 1 < 3; omega) ⟨2, ![H, 256]⟩ y rfl rfl 1 rfl
        (ix2 (⟨k.val - 1, by omega⟩ : Fin H) c) (fun b => match b with
          | ⟨0, _⟩ => fun h => absurd rfl h
          | ⟨1, _⟩ => fun _ => rfl) (by show 1 + (k.val - 1) = k.val; omega)).trans ?_
      exact congrArg y (congrArg (fun r => ix2 r c) (Fin.ext (by show k.val - 1 = min (k.val - 1) L; omega)))
    · -- the last row, once more
      refine (concatenate_apply_piece (t := ⟨2, ![H2, 256]⟩) (0 : Fin 2) xs hc (ix2 k c) 2 (by show 2 < 3; omega) ⟨2, ![1, 256]⟩ _ rfl rfl (1 + H) (by
          show ([1, H].map fun n => n).sum = 1 + H
          simp) (ix2 (0 : Fin 1) c) (fun b => match b with
          | ⟨0, _⟩ => fun h => absurd rfl h
          | ⟨1, _⟩ => fun _ => rfl) (by show 1 + H + 0 = k.val; omega)).trans ?_
      refine (extractStridedSlice_apply ![L, 0] y hs1 (ix2 (0 : Fin 1) c) (ix2 (⟨L, by omega⟩ : Fin H) c) (fun a =>
        match a with
        | ⟨0, _⟩ => by show L = L + 0; omega
        | ⟨1, _⟩ => by show c.val = 0 + c.val; omega)).trans ?_
      exact congrArg y (congrArg (fun r => ix2 r c) (Fin.ext (by show L = min (k.val - 1) L; omega)))

end Cert.LibEdgeMax

end
-- ==== Proof.Slab.lean ====
/-
  One 64-row slab of the filter, from the slab the body loads.

  The body handles a plane in four slabs of 64 rows. For each it loads the slab with the rows just above and below it
  that exist (`H` = 65 or 66 rows, starting at row `a` of the plane), takes the lane maximum of every loaded row (the
  row's three-neighbour maximum, −∞ beyond the lane ends), duplicates the first and the last of those rows, and takes
  the maximum of three consecutive rows of the result at the offsets `o0, o0 + 1, o0 + 2`; the entry is kept where that
  maximum equals it. With the loaded rows identified with the plane's padded rows `a + l + 1` (`hq`), output row `i`
  of the slab is the comparison of the plane's entry with the maximum of the padded rows
  `a + min (o + i − 1) L + 1` for `o = o0, o0 + 1, o0 + 2` — the three rows around it, clamped into the loaded slab.
-/
import proofs.«151072_g90855738179815_cont_sun_c4_584_9_alg».proof.Proof.Spec
import proofs.«151072_g90855738179815_cont_sun_c4_584_9_alg».proof.Proof.LibEdgeMax
import Idealize.ShloMosaic.PureOps.Ideal.Laws

noncomputable section

namespace Cert.Nms

open Idealize.ShloMosaic Idealize.ShloMosaic.ValueIdx Cert.LibEdgeMax

/-- The kernel's `where(m == x, x, 0)` on extended reals. -/
theorem select_oeq (W X : EReal) :
    Scalar.select (FloatOps.cmpf (F := Ideal) (φ := .f32) .oeq W X) X (Scalar.ofBits (F := Ideal) .f32 0x00000000#32)
      = if W = X then X else 0 := by
  have hz : Scalar.ofBits (F := Ideal) .f32 0x00000000#32 = (0 : EReal) := Ideal.ofBits_zero_f32
  rw [hz]
  show (if BitVec.ofBool (decide (W = X)) = 1#1 then X else 0) = _
  by_cases h : W = X
  · rw [if_pos h]; simp [h]
  · rw [if_neg h]; simp [h]

/-- ONE SLAB at an index. -/
theorem slab_keep {H H2 L o0 o1 o2 o' : ℕ} (hH2 : H2 = H + 2) (hL : L + 1 = H) (ho1 : o1 = o0 + 1) (ho2 : o2 = o0 + 2)
    (hob : o2 + 64 ≤ H2) (hox : o' + 64 ≤ H)
    (xl : FVec Ideal ⟨2, ![H, 256]⟩ .f32)
    (hi : (⟨2, ![H, 256]⟩ : Shape).Iotas .tc 32 [1]) (hr : (⟨2, ![H, 256]⟩ : Shape).Rotates 1 none)
    (hs0 : (⟨2, ![H, 256]⟩ : Shape).Slices ![0, 0] (⟨2, ![1, 256]⟩ : Shape)) (hs1 : (⟨2, ![H, 256]⟩ : Shape).Slices ![L, 0] (⟨2, ![1, 256]⟩ : Shape))
    (hc : Shape.Concatenates [(⟨2, ![1, 256]⟩ : Shape), (⟨2, ![H, 256]⟩ : Shape), (⟨2, ![1, 256]⟩ : Shape)] (⟨2, ![H2, 256]⟩ : Shape) 0)
    (hsl0 : (⟨2, ![H2, 256]⟩ : Shape).Slices ![o0, 0] (⟨2, ![64, 256]⟩ : Shape)) (hsl1 : (⟨2, ![H2, 256]⟩ : Shape).Slices ![o1, 0] (⟨2, ![64, 256]⟩ : Shape)) (hsl2 : (⟨2, ![H2, 256]⟩ : Shape).Slices ![o2, 0] (⟨2, ![64, 256]⟩ : Shape))
    (hsx : (⟨2, ![H, 256]⟩ : Shape).Slices ![o', 0] (⟨2, ![64, 256]⟩ : Shape))
    (q : ℕ → ℕ → EReal) (a : ℕ) (hq : ∀ (l : Fin H) (C : ℕ), padLane xl l C = q (a + l.val + 1) C)
    (i : Fin 64) (c : Fin 256) :
    (select (cmpf .oeq (maximumf (maximumf (extractStridedSlice (⟨2, ![64, 256]⟩ : Shape) ![o0, 0] (concatenate (⟨2, ![H2, 256]⟩ : Shape) 0 [⟨(⟨2, ![1, 256]⟩ : Shape), extractStridedSlice (⟨2, ![1, 256]⟩ : Shape) ![0, 0] (maximumf (maximumf (select (cmpi .eq (iota .tc (⟨2, ![H, 256]⟩ : Shape) 32 [1] hi) (broadcast (⟨2, ![H, 256]⟩ : Shape) 0#32)) (broadcast (⟨2, ![H, 256]⟩ : Shape) (Scalar.ofBits (F := Ideal) .f32 0xFF800000#32)) (dynamicRotate 1 1#32 none xl hr)) xl) (select (cmpi .eq (iota .tc (⟨2, ![H, 256]⟩ : Shape) 32 [1] hi) (broadcast (⟨2, ![H, 256]⟩ : Shape) 255#32)) (broadcast (⟨2, ![H, 256]⟩ : Shape) (Scalar.ofBits (F := Ideal) .f32 0xFF800000#32)) (dynamicRotate 1 255#32 none xl hr))) hs0⟩, ⟨(⟨2, ![H, 256]⟩ : Shape), (maximumf (maximumf (select (cmpi .eq (iota .tc (⟨2, ![H, 256]⟩ : Shape) 32 [1] hi) (broadcast (⟨2, ![H, 256]⟩ : Shape) 0#32)) (broadcast (⟨2, ![H, 256]⟩ : Shape) (Scalar.ofBits (F := Ideal) .f32 0xFF800000#32)) (dynamicRotate 1 1#32 none xl hr)) xl) (select (cmpi .eq (iota .tc (⟨2, ![H, 256]⟩ : Shape) 32 [1] hi) (broadcast (⟨2, ![H, 256]⟩ : Shape) 255#32)) (broadcast (⟨2, ![H, 256]⟩ : Shape) (Scalar.ofBits (F := Ideal) .f32 0xFF800000#32)) (dynamicRotate 1 255#32 none xl hr)))⟩, ⟨(⟨2, ![1, 256]⟩ : Shape), extractStridedSlice (⟨2, ![1, 256]⟩ : Shape) ![L, 0] (maximumf (maximumf (select (cmpi .eq (iota .tc (⟨2, ![H, 256]⟩ : Shape) 32 [1] hi) (broadcast (⟨2, ![H, 256]⟩ : Shape) 0#32)) (broadcast (⟨2, ![H, 256]⟩ : Shape) (Scalar.ofBits (F := Ideal) .f32 0xFF800000#32)) (dynamicRotate 1 1#32 none xl hr)) xl) (select (cmpi .eq (iota .tc (⟨2, ![H, 256]⟩ : Shape) 32 [1] hi) (broadcast (⟨2, ![H, 256]⟩ : Shape) 255#32)) (broadcast (⟨2, ![H, 256]⟩ : Shape) (Scalar.ofBits (F := Ideal) .f32 0xFF800000#32)) (dynamicRotate 1 255#32 none xl hr))) hs1⟩] hc) hsl0) (extractStridedSlice (⟨2, ![64, 256]⟩ : Shape) ![o1, 0] (concatenate (⟨2, ![H2, 256]⟩ : Shape) 0 [⟨(⟨2, ![1, 256]⟩ : Shape), extractStridedSlice (⟨2, ![1, 256]⟩ : Shape) ![0, 0] (maximumf (maximumf (select (cmpi .eq (iota .tc (⟨2, ![H, 256]⟩ : Shape) 32 [1] hi) (broadcast (⟨2, ![H, 256]⟩ : Shape) 0#32)) (broadcast (⟨2, ![H, 256]⟩ : Shape) (Scalar.ofBits (F := Ideal) .f32 0xFF800000#32)) (dynamicRotate 1 1#32 none xl hr)) xl) (select (cmpi .eq (iota .tc (⟨2, ![H, 256]⟩ : Shape) 32 [1] hi) (broadcast (⟨2, ![H, 256]⟩ : Shape) 255#32)) (broadcast (⟨2, ![H, 256]⟩ : Shape) (Scalar.ofBits (F := Ideal) .f32 0xFF800000#32)) (dynamicRotate 1 255#32 none xl hr))) hs0⟩, ⟨(⟨2, ![H, 256]⟩ : Shape), (maximumf (maximumf (select (cmpi .eq (iota .tc (⟨2, ![H, 256]⟩ : Shape) 32 [1] hi) (broadcast (⟨2, ![H, 256]⟩ : Shape) 0#32)) (broadcast (⟨2, ![H, 256]⟩ : Shape) (Scalar.ofBits (F := Ideal) .f32 0xFF800000#32)) (dynamicRotate 1 1#32 none xl hr)) xl) (select (cmpi .eq (iota .tc (⟨2, ![H, 256]⟩ : Shape) 32 [1] hi) (broadcast (⟨2, ![H, 256]⟩ : Shape) 255#32)) (broadcast (⟨2, ![H, 256]⟩ : Shape) (Scalar.ofBits (F := Ideal) .f32 0xFF800000#32)) (dynamicRotate 1 255#32 none xl hr)))⟩, ⟨(⟨2, ![1, 256]⟩ : Shape), extractStridedSlice (⟨2, ![1, 256]⟩ : Shape) ![L, 0] (maximumf (maximumf (select (cmpi .eq (iota .tc (⟨2, ![H, 256]⟩ : Shape) 32 [1] hi) (broadcast (⟨2, ![H, 256]⟩ : Shape) 0#32)) (broadcast (⟨2, ![H, 256]⟩ : Shape) (Scalar.ofBits (F := Ideal) .f32 0xFF800000#32)) (dynamicRotate 1 1#32 none xl hr)) xl) (select (cmpi .eq (iota .tc (⟨2, ![H, 256]⟩ : Shape) 32 [1] hi) (broadcast (⟨2, ![H, 256]⟩ : Shape) 255#32)) (broadcast (⟨2, ![H, 256]⟩ : Shape) (Scalar.ofBits (F := Ideal) .f32 0xFF800000#32)) (dynamicRotate 1 255#32 none xl hr))) hs1⟩] hc) hsl1)) (extractStridedSlice (⟨2, ![64, 256]⟩ : Shape) ![o2, 0] (concatenate (⟨2, ![H2, 256]⟩ : Shape) 0 [⟨(⟨2, ![1, 256]⟩ : Shape), extractStridedSlice (⟨2, ![1, 256]⟩ : Shape) ![0, 0] (maximumf (maximumf (select (cmpi .eq (iota .tc (⟨2, ![H, 256]⟩ : Shape) 32 [1] hi) (broadcast (⟨2, ![H, 256]⟩ : Shape) 0#32)) (broadcast (⟨2, ![H, 256]⟩ : Shape) (Scalar.ofBits (F := Ideal) .f32 0xFF800000#32)) (dynamicRotate 1 1#32 none xl hr)) xl) (select (cmpi .eq (iota .tc (⟨2, ![H, 256]⟩ : Shape) 32 [1] hi) (broadcast (⟨2, ![H, 256]⟩ : Shape) 255#32)) (broadcast (⟨2, ![H, 256]⟩ : Shape) (Scalar.ofBits (F := Ideal) .f32 0xFF800000#32)) (dynamicRotate 1 255#32 none xl hr))) hs0⟩, ⟨(⟨2, ![H, 256]⟩ : Shape), (maximumf (maximumf (select (cmpi .eq (iota .tc (⟨2, ![H, 256]⟩ : Shape) 32 [1] hi) (broadcast (⟨2, ![H, 256]⟩ : Shape) 0#32)) (broadcast (⟨2, ![H, 256]⟩ : Shape) (Scalar.ofBits (F := Ideal) .f32 0xFF800000#32)) (dynamicRotate 1 1#32 none xl hr)) xl) (select (cmpi .eq (iota .tc (⟨2, ![H, 256]⟩ : Shape) 32 [1] hi) (broadcast (⟨2, ![H, 256]⟩ : Shape) 255#32)) (broadcast (⟨2, ![H, 256]⟩ : Shape) (Scalar.ofBits (F := Ideal) .f32 0xFF800000#32)) (dynamicRotate 1 255#32 none xl hr)))⟩, ⟨(⟨2, ![1, 256]⟩ : Shape), extractStridedSlice (⟨2, ![1, 256]⟩ : Shape) ![L, 0] (maximumf (maximumf (select (cmpi .eq (iota .tc (⟨2, ![H, 256]⟩ : Shape) 32 [1] hi) (broadcast (⟨2, ![H, 256]⟩ : Shape) 0#32)) (broadcast (⟨2, ![H, 256]⟩ : Shape) (Scalar.ofBits (F := Ideal) .f32 0xFF800000#32)) (dynamicRotate 1 1#32 none xl hr)) xl) (select (cmpi .eq (iota .tc (⟨2, ![H, 256]⟩ : Shape) 32 [1] hi) (broadcast (⟨2, ![H, 256]⟩ : Shape) 255#32)) (broadcast (⟨2, ![H, 256]⟩ : Shape) (Scalar.ofBits (F := Ideal) .f32 0xFF800000#32)) (dynamicRotate 1 255#32 none xl hr))) hs1⟩] hc) hsl2)) (extractStridedSlice (⟨2, ![64, 256]⟩ : Shape) ![o', 0] xl hsx)) (extractStridedSlice (⟨2, ![64, 256]⟩ : Shape) ![o', 0] xl hsx) (broadcast (⟨2, ![64, 256]⟩ : Shape) (Scalar.ofBits (F := Ideal) .f32 0x00000000#32))) (ix2 i c)
      = (if max (max (rowMax q (a + min (o0 + i.val - 1) L + 1) c.val) (rowMax q (a + min (o1 + i.val - 1) L + 1) c.val))
              (rowMax q (a + min (o2 + i.val - 1) L + 1) c.val) = q (a + (o' + i.val) + 1) (c.val + 1)
          then q (a + (o' + i.val) + 1) (c.val + 1) else 0) := by
  have hi64 := i.isLt
  rw [select_apply, cmpf_apply, maximumf_apply, maximumf_apply]
  -- the three rows of the duplicated lane maxima, and the centre
  rw [extractStridedSlice_apply ![o0, 0] _ hsl0 (ix2 i c) (ix2 (⟨o0 + i.val, by omega⟩ : Fin H2) c) (fun b =>
      match b with
      | ⟨0, _⟩ => rfl
      | ⟨1, _⟩ => by show c.val = 0 + c.val; omega),
    extractStridedSlice_apply ![o1, 0] _ hsl1 (ix2 i c) (ix2 (⟨o1 + i.val, by omega⟩ : Fin H2) c) (fun b =>
      match b with
      | ⟨0, _⟩ => rfl
      | ⟨1, _⟩ => by show c.val = 0 + c.val; omega),
    extractStridedSlice_apply ![o2, 0] _ hsl2 (ix2 i c) (ix2 (⟨o2 + i.val, by omega⟩ : Fin H2) c) (fun b =>
      match b with
      | ⟨0, _⟩ => rfl
      | ⟨1, _⟩ => by show c.val = 0 + c.val; omega),
    extractStridedSlice_apply ![o', 0] xl hsx (ix2 i c) (ix2 (⟨o' + i.val, by omega⟩ : Fin H) c) (fun b =>
      match b with
      | ⟨0, _⟩ => rfl
      | ⟨1, _⟩ => by show c.val = 0 + c.val; omega)]
  rw [dupRows_apply hH2 hL _ hs0 hs1 hc ⟨o0 + i.val, by omega⟩ c, dupRows_apply hH2 hL _ hs0 hs1 hc ⟨o1 + i.val, by omega⟩ c,
    dupRows_apply hH2 hL _ hs0 hs1 hc ⟨o2 + i.val, by omega⟩ c]
  rw [laneMax_apply xl hi hr _ c, laneMax_apply xl hi hr _ c, laneMax_apply xl hi hr _ c]
  simp only [hq]
  rw [← padLane_succ xl ⟨o' + i.val, by omega⟩ c, hq]
  exact select_oeq _ _

end Cert.Nms

end
-- ==== Proof.Payloads.lean ====
/-
  The four payloads of a plane's trip are the filter on the plane, slab by slab.

  Each payload is the slab computation of Proof/Slab.lean on one loaded slab: rows 0–64 of the plane for output rows
  0–63 (the row above row 0 does not exist: the first lane-maximum row is used twice, which by idempotence is the same
  as a −∞ row), rows 63–128 for 64–127, rows 127–192 for 128–191, and rows 191–255 for 192–255 (the row below row 255
  does not exist: the last row twice). In every case the three rows entering the maximum are the padded rows
  `r, r + 1, r + 2` of the plane around output row `r`, so the payload is `Nms.nms` of the block at the plane's rows.
-/
import proofs.«151072_g90855738179815_cont_sun_c4_584_9_alg».proof.Proof.Slab
import proofs.«151072_g90855738179815_cont_sun_c4_584_9_alg».proof.Proof.Gen.KernelIdeal.Skeleton
import Idealize.ShloMosaic.Lib.Pipeline.Value

set_option maxRecDepth 16384

noncomputable section

namespace Cert.Nms

open Idealize.ShloMosaic Idealize.ShloMosaic.ValueIdx Cert.LibEdgeMax
open Cert.KernelIdeal Cert.KernelIdeal.Gen

/-- A loaded slab `v` of `H` rows starting at row `a` of plane `p` of the block `B`, viewed without its unit axis: its
    padded lanes are the plane's padded row `a + l + 1`. -/
theorem padLane_load {H : ℕ} (B : (⟨3, ![32, 256, 256]⟩ : Shape).Idx → EReal) (p : Fin 32) (a : ℕ) (ha : a + H ≤ 256)
    (v : (⟨3, ![1, H, 256]⟩ : Shape).Idx → EReal) (h : (⟨3, ![1, H, 256]⟩ : Shape).ShapeCasts ⟨2, ![H, 256]⟩)
    (hv : ∀ (l : Fin H) (c : Fin 256), v (ix3 (0 : Fin 1) l c) = B (ix3 p ⟨a + l.val, by have := l.isLt; omega⟩ c))
    (l : Fin H) (C : ℕ) :
    padLane (shapeCast ⟨2, ![H, 256]⟩ v h) l C = padPlane B p (a + l.val + 1) C := by
  have hl := l.isLt
  unfold padLane padPlane
  by_cases hC : 1 ≤ C ∧ C - 1 < 256
  · rw [dif_pos hC, dif_pos ⟨⟨by omega, by omega⟩, hC⟩, shapeCast_dropUnit_apply]
    have e : (Fin.cons ⟨0, Nat.one_pos⟩ (ix2 l (⟨C - 1, hC.2⟩ : Fin 256)) : (⟨3, Matrix.vecCons 1 ![H, 256]⟩ : Shape).Idx)
        = ix3 (0 : Fin 1) l (⟨C - 1, hC.2⟩ : Fin 256) := by
      funext b
      match b with
      | ⟨0, _⟩ => rfl
      | ⟨1, _⟩ => rfl
      | ⟨2, _⟩ => rfl
    rw [e, hv]
    exact congrArg B (by
      funext b
      match b with
      | ⟨0, _⟩ => rfl
      | ⟨1, _⟩ => exact Fin.ext (by show a + l.val = a + l.val + 1 - 1; omega)
      | ⟨2, _⟩ => rfl)
  · rw [dif_neg hC, dif_neg (fun h => hC h.2)]

/-- The comparison against the maximum of three padded rows is the filter, once the rows are the neighbourhood's. -/
theorem keep_of_rows (q : ℕ → ℕ → EReal) (r c R0 R1 R2 Rc : ℕ)
    (hw : max (max (rowMax q R0 c) (rowMax q R1 c)) (rowMax q R2 c) = winMax q r c) (hc : Rc = r + 1) :
    (if max (max (rowMax q R0 c) (rowMax q R1 c)) (rowMax q R2 c) = q Rc (c + 1) then q Rc (c + 1) else 0) = keepAt q r c := by
  subst hc; unfold keepAt; rw [hw]

/-- A block index with a unit leading axis dropped. -/
theorem tail_ix3 (i : Fin 64) (c : Fin 256) :
    (fun a : Fin 2 => (ix3 (0 : Fin 1) i c : (⟨2 + 1, Matrix.vecCons 1 ![64, 256]⟩ : Shape).Idx) a.succ) = ix2 i c := by
  funext a
  match a with
  | ⟨0, _⟩ => rfl
  | ⟨1, _⟩ => rfl

/-- Rows 0–63 of plane `p`: the payload of the slab loaded from row 0. -/
theorem pay3_apply (B : (⟨3, ![32, 256, 256]⟩ : Shape).Idx → EReal) (p : Fin 32) (v : Vec Ideal S1x65x256 .f32)
    (hv : ∀ (l : Fin 65) (c : Fin 256), v (ix3 (0 : Fin 1) l c) = B (ix3 p ⟨0 + l.val, by have := l.isLt; omega⟩ c))
    (i : Fin 64) (c : Fin 256) :
    k0_pay3 v (ix3 (0 : Fin 1) i c) = nms B (ix3 p ⟨0 + i.val, by have := i.isLt; omega⟩ c) := by
  have hi := i.isLt
  unfold k0_pay3
  dsimp only
  rw [shapeCast_addUnit_apply, tail_ix3]
  refine (slab_keep (H := 65) (H2 := 67) (L := 64) (o0 := 0) (o1 := 1) (o2 := 2) (o' := 0) rfl rfl rfl rfl (by omega) (by omega)
    _ _ _ _ _ _ _ _ _ _ (padPlane B p) 0 (padLane_load B p 0 (by omega) v _ hv) i c).trans ?_
  rw [nms_apply]
  refine keep_of_rows _ (0 + i.val) _ _ _ _ _ ?_ (by show 0 + (0 + i.val) + 1 = 0 + i.val + 1; omega)
  by_cases h0 : i.val = 0
  · rw [show 0 + min (0 + i.val - 1) 64 + 1 = 1 by omega, show 0 + min (1 + i.val - 1) 64 + 1 = 1 by omega,
      show 0 + min (2 + i.val - 1) 64 + 1 = 2 by omega, show 0 + i.val = 0 by omega]
    exact winMax_top _ _ (padPlane_row0 B p)
  · rw [show 0 + min (0 + i.val - 1) 64 + 1 = 0 + i.val by omega, show 0 + min (1 + i.val - 1) 64 + 1 = 0 + i.val + 1 by omega,
      show 0 + min (2 + i.val - 1) 64 + 1 = 0 + i.val + 2 by omega]
    rfl

/-- Rows 64–127 of plane `p`: the payload of the slab loaded from row 63. -/
theorem pay6_apply (B : (⟨3, ![32, 256, 256]⟩ : Shape).Idx → EReal) (p : Fin 32) (v : Vec Ideal S1x66x256 .f32)
    (hv : ∀ (l : Fin 66) (c : Fin 256), v (ix3 (0 : Fin 1) l c) = B (ix3 p ⟨63 + l.val, by have := l.isLt; omega⟩ c))
    (i : Fin 64) (c : Fin 256) :
    k0_pay6 (k0_pay4 v) (iota .tc S66x256 32 [1] Gen.iota_S66x256_d1_w32) (k0_pay5 v) 255#32 (ix3 (0 : Fin 1) i c)
      = nms B (ix3 p ⟨64 + i.val, by have := i.isLt; omega⟩ c) := by
  have hi := i.isLt
  unfold k0_pay6 k0_pay5 k0_pay4
  dsimp only
  rw [shapeCast_addUnit_apply, tail_ix3]
  refine (slab_keep (H := 66) (H2 := 68) (L := 65) (o0 := 1) (o1 := 2) (o2 := 3) (o' := 1) rfl rfl rfl rfl (by omega) (by omega)
    _ _ _ _ _ _ _ _ _ _ (padPlane B p) 63 (padLane_load B p 63 (by omega) v _ hv) i c).trans ?_
  rw [nms_apply]
  refine keep_of_rows _ (64 + i.val) _ _ _ _ _ ?_ (by show 63 + (1 + i.val) + 1 = 64 + i.val + 1; omega)
  rw [show 63 + min (1 + i.val - 1) 65 + 1 = 64 + i.val by omega, show 63 + min (2 + i.val - 1) 65 + 1 = 64 + i.val + 1 by omega,
    show 63 + min (3 + i.val - 1) 65 + 1 = 64 + i.val + 2 by omega]
  rfl

/-- Rows 128–191 of plane `p`: the payload of the slab loaded from row 127. -/
theorem pay1_apply (B : (⟨3, ![32, 256, 256]⟩ : Shape).Idx → EReal) (p : Fin 32) (v : Vec Ideal S1x66x256 .f32)
    (hv : ∀ (l : Fin 66) (c : Fin 256), v (ix3 (0 : Fin 1) l c) = B (ix3 p ⟨127 + l.val, by have := l.isLt; omega⟩ c))
    (i : Fin 64) (c : Fin 256) :
    k0_pay1 (k0_pay7 v) (k0_pay9 v) (k0_pay10 v) (ix3 (0 : Fin 1) i c)
      = nms B (ix3 p ⟨128 + i.val, by have := i.isLt; omega⟩ c) := by
  have hi := i.isLt
  unfold k0_pay1 k0_pay9 k0_pay10 k0_pay8 k0_pay7
  dsimp only
  rw [shapeCast_addUnit_apply, tail_ix3]
  refine (slab_keep (H := 66) (H2 := 68) (L := 65) (o0 := 1) (o1 := 2) (o2 := 3) (o' := 1) rfl rfl rfl rfl (by omega) (by omega)
    _ _ _ _ _ _ _ _ _ _ (padPlane B p) 127 (padLane_load B p 127 (by omega) v _ hv) i c).trans ?_
  rw [nms_apply]
  refine keep_of_rows _ (128 + i.val) _ _ _ _ _ ?_ (by show 127 + (1 + i.val) + 1 = 128 + i.val + 1; omega)
  rw [show 127 + min (1 + i.val - 1) 65 + 1 = 128 + i.val by omega, show 127 + min (2 + i.val - 1) 65 + 1 = 128 + i.val + 1 by omega,
    show 127 + min (3 + i.val - 1) 65 + 1 = 128 + i.val + 2 by omega]
  rfl

/-- Rows 192–255 of plane `p`: the payload of the slab loaded from row 191. -/
theorem pay2_apply (B : (⟨3, ![32, 256, 256]⟩ : Shape).Idx → EReal) (p : Fin 32) (v : Vec Ideal S1x65x256 .f32)
    (hv : ∀ (l : Fin 65) (c : Fin 256), v (ix3 (0 : Fin 1) l c) = B (ix3 p ⟨191 + l.val, by have := l.isLt; omega⟩ c))
    (i : Fin 64) (c : Fin 256) :
    k0_pay2 v (ix3 (0 : Fin 1) i c) = nms B (ix3 p ⟨192 + i.val, by have := i.isLt; omega⟩ c) := by
  have hi := i.isLt
  unfold k0_pay2
  dsimp only
  rw [shapeCast_addUnit_apply, tail_ix3]
  refine (slab_keep (H := 65) (H2 := 67) (L := 64) (o0 := 1) (o1 := 2) (o2 := 3) (o' := 1) rfl rfl rfl rfl (by omega) (by omega)
    _ _ _ _ _ _ _ _ _ _ (padPlane B p) 191 (padLane_load B p 191 (by omega) v _ hv) i c).trans ?_
  rw [nms_apply]
  refine keep_of_rows _ (192 + i.val) _ _ _ _ _ ?_ (by show 191 + (1 + i.val) + 1 = 192 + i.val + 1; omega)
  by_cases h63 : i.val = 63
  · rw [show 191 + min (1 + i.val - 1) 64 + 1 = 255 by omega, show 191 + min (2 + i.val - 1) 64 + 1 = 256 by omega,
      show 191 + min (3 + i.val - 1) 64 + 1 = 256 by omega, show 192 + i.val = 255 by omega]
    exact winMax_bottom _ _ (padPlane_row257 B p)
  · rw [show 191 + min (1 + i.val - 1) 64 + 1 = 192 + i.val by omega, show 191 + min (2 + i.val - 1) 64 + 1 = 192 + i.val + 1 by omega,
      show 191 + min (3 + i.val - 1) 64 + 1 = 192 + i.val + 2 by omega]
    rfl

end Cert.Nms

end
-- ==== Proof.BlockValue.lean ====
/-
  What the body leaves in the output's staging buffer: the filter on the input block.

  The run's 128 stored pieces (Proof/TripsIdeal.lean) are tiles of ONE function of the block index: piece `s` of plane
  `k`'s trip sits at rows `64 s … 64 s + 63` of plane `k` and its payload is the filter on the block read at those rows
  (Proof/Payloads.lean), the loaded slab being rows of plane `k` of the block. The pieces tile the block, so the
  staging buffer read back is `nms` of the input block (the pieces-to-function lemma of the value library).
-/
import proofs.«151072_g90855738179815_cont_sun_c4_584_9_alg».proof.Proof.PatchedFrameIdeal
import proofs.«151072_g90855738179815_cont_sun_c4_584_9_alg».proof.Proof.Payloads

set_option maxRecDepth 16384

noncomputable section

namespace Cert.Nms

open Idealize.ShloMosaic Idealize.ShloMosaic.ValueIdx Idealize.ShloMosaic.TcCoe Idealize.SL.Sem
open Cert.KernelIdeal Cert.KernelIdeal.Gen

/-- The loop's induction variable, read as an index, is the trip. -/
theorem iv_toNat (k : ℕ) (hk : k < 32) : (Scalar.indexCast (Scf.iv (0#32) (1#32) k)).toNat = k := by
  unfold Scalar.indexCast Scf.iv
  simp only [BitVec.zero_add, BitVec.mul_one, BitVec.toNat_ofNat]
  omega

theorem trip_lt (k : Fin k0_t1_loop.trips) : k.val < 32 := Nat.lt_of_lt_of_le k.isLt k0_t1_abs.2.1

/-- A load of `H` rows from row `a` of plane `p` of the block reads those rows. -/
theorem load_rows (arg1 : Memref sig .tc .vmem S32x256x256 .f32) (harg1 : arg1.IsWhole) (x0 : Vec Ideal S32x256x256 .f32)
    {H : ℕ} (off : Fin 3 → ℕ) (p : Fin 32) (a : ℕ) (h0 : off 0 = p.val) (h1 : off 1 = a) (h2 : off 2 = 0)
    (inb : ∀ b, off b + (![1, H, 256] : Fin 3 → ℕ) b ≤ S32x256x256.size b) (l : Fin H) (c : Fin 256)
    (hal : a + l.val < 256) :
    View.readAt (Elt Ideal) arg1.view (Rect.unit (s := S32x256x256) off ![1, H, 256] inb).toLoadRect (harg1.unread x0)
        (ix3 (0 : Fin 1) l c) = x0 (ix3 p ⟨a + l.val, hal⟩ c) := by
  rw [View.readAt_eq_ld, Memref.IsWhole.read_unread]
  show x0 _ = x0 _
  congr 1
  funext b
  apply Fin.ext
  match b with
  | ⟨0, _⟩ => show off 0 + 1 * 0 = p.val; omega
  | ⟨1, _⟩ => show off 1 + 1 * l.val = a + l.val; omega
  | ⟨2, _⟩ => show off 2 + 1 * c.val = c.val; omega

/-- A stored slab of 64 rows from row `a` of plane `p` sits at those rows of the block. -/
theorem emb_rows (off : Fin 3 → ℕ) (p : Fin 32) (a : ℕ) (h0 : off 0 = p.val) (h1 : off 1 = a) (h2 : off 2 = 0)
    (inb : ∀ b, off b + S1x64x256.size b ≤ S32x256x256.size b) (i : Fin 64) (c : Fin 256) (hai : a + i.val < 256) :
    (Rect.unit (s := S32x256x256) off S1x64x256.size inb).emb (ix3 (0 : Fin 1) i c) = ix3 p ⟨a + i.val, hai⟩ c := by
  funext b
  apply Fin.ext
  match b with
  | ⟨0, _⟩ => show off 0 + 1 * 0 = p.val; omega
  | ⟨1, _⟩ => show off 1 + 1 * i.val = a + i.val; omega
  | ⟨2, _⟩ => show off 2 + 1 * c.val = c.val; omega

/-- The four pieces of plane `k`'s trip are tiles of the filter on the block. -/
theorem trip_ok (arg1 : Memref sig .tc .vmem S32x256x256 .f32) (harg1 : arg1.IsWhole) (x0 : Vec Ideal S32x256x256 .f32)
    (k : Fin k0_t1_loop.trips) :
    ∀ p ∈ Trips.tripPieces (F := Ideal) arg1 (harg1.unread x0) k, ∀ x : p.1.shape.Idx, p.2 x = nms x0 (p.1.emb x) := by
  have hk := trip_lt k
  intro p hp x
  unfold Trips.tripPieces at hp
  simp only [List.mem_cons, List.mem_nil_iff, or_false] at hp
  rcases hp with rfl | rfl | rfl | rfl
  · dsimp only at x ⊢
    obtain ⟨z, i, c, rfl⟩ : ∃ (z : Fin 1) (i : Fin 64) (c : Fin 256), x = ix3 z i c := ⟨x 0, x 1, x 2, eq_ix3 x⟩
    obtain rfl : z = 0 := Subsingleton.elim _ _
    have hi := i.isLt
    rw [emb_rows (k0_off8 k) ⟨k.val, hk⟩ 192 (iv_toNat k.val hk) rfl rfl _ i c (by omega)]
    exact pay2_apply x0 ⟨k.val, hk⟩ _ (fun l c => load_rows arg1 harg1 x0 (k0_off7 k) ⟨k.val, hk⟩ 191
      (iv_toNat k.val hk) rfl rfl _ l c (by have := l.isLt; omega)) i c
  · dsimp only at x ⊢
    obtain ⟨z, i, c, rfl⟩ : ∃ (z : Fin 1) (i : Fin 64) (c : Fin 256), x = ix3 z i c := ⟨x 0, x 1, x 2, eq_ix3 x⟩
    obtain rfl : z = 0 := Subsingleton.elim _ _
    have hi := i.isLt
    rw [emb_rows (k0_off6 k) ⟨k.val, hk⟩ 128 (iv_toNat k.val hk) rfl rfl _ i c (by omega)]
    exact pay1_apply x0 ⟨k.val, hk⟩ _ (fun l c => load_rows arg1 harg1 x0 (k0_off5 k) ⟨k.val, hk⟩ 127
      (iv_toNat k.val hk) rfl rfl _ l c (by have := l.isLt; omega)) i c
  · dsimp only at x ⊢
    obtain ⟨z, i, c, rfl⟩ : ∃ (z : Fin 1) (i : Fin 64) (c : Fin 256), x = ix3 z i c := ⟨x 0, x 1, x 2, eq_ix3 x⟩
    obtain rfl : z = 0 := Subsingleton.elim _ _
    have hi := i.isLt
    rw [emb_rows (k0_off4 k) ⟨k.val, hk⟩ 64 (iv_toNat k.val hk) rfl rfl _ i c (by omega)]
    exact pay6_apply x0 ⟨k.val, hk⟩ _ (fun l c => load_rows arg1 harg1 x0 (k0_off3 k) ⟨k.val, hk⟩ 63
      (iv_toNat k.val hk) rfl rfl _ l c (by have := l.isLt; omega)) i c
  · dsimp only at x ⊢
    obtain ⟨z, i, c, rfl⟩ : ∃ (z : Fin 1) (i : Fin 64) (c : Fin 256), x = ix3 z i c := ⟨x 0, x 1, x 2, eq_ix3 x⟩
    obtain rfl : z = 0 := Subsingleton.elim _ _
    have hi := i.isLt
    rw [emb_rows (k0_off2 k) ⟨k.val, hk⟩ 0 (iv_toNat k.val hk) rfl rfl _ i c (by omega)]
    exact pay3_apply x0 ⟨k.val, hk⟩ _ (fun l c => load_rows arg1 harg1 x0 (k0_off1 k) ⟨k.val, hk⟩ 0
      (iv_toNat k.val hk) rfl rfl _ l c (by have := l.isLt; omega)) i c

/-- So are all the pieces of the trips before `n`. -/
theorem pieces_ok (arg1 : Memref sig .tc .vmem S32x256x256 .f32) (harg1 : arg1.IsWhole) (x0 : Vec Ideal S32x256x256 .f32) :
    ∀ n : ℕ, ∀ p ∈ Trips.allPieces (F := Ideal) arg1 (harg1.unread x0) n, ∀ x : p.1.shape.Idx, p.2 x = nms x0 (p.1.emb x)
  | 0 => by
    intro p hp
    rw [Trips.allPieces] at hp
    exact absurd hp List.not_mem_nil
  | k + 1 => by
    intro p hp
    rw [Trips.allPieces] at hp
    by_cases h : k < k0_t1_loop.trips
    · rw [dif_pos h, List.mem_append] at hp
      rcases hp with hp | hp
      · exact trip_ok arg1 harg1 x0 ⟨k, h⟩ p hp
      · exact pieces_ok arg1 harg1 x0 k p hp
    · rw [dif_neg h] at hp
      exact pieces_ok arg1 harg1 x0 k p hp

/-- THE OUTPUT BLOCK the body leaves is the filter on the input block. -/
theorem out_eq (c : Dev nD) (i : grid0.Coords) (arg1 : Memref sig .tc .vmem S32x256x256 .f32) (harg1 : arg1.IsWhole)
    (arg2 : Memref sig .tc .vmem S32x256x256 .f32) (harg2 : arg2.IsWhole) (x0 : Vec Ideal S32x256x256 .f32) :
    GenP.out0_A_1 (F := Ideal) c i arg1 harg1 arg2 harg2 x0 = nms x0 := by
  unfold GenP.out0_A_1
  rw [View.read_writes_eq_canon _ _ _ (GenP.cover0_A_1 c i arg1 harg1 arg2 harg2 x0)]
  funext y
  refine View.canon_apply_of_pieces (nms x0) _ ?_ y (GenP.cover0_A_1 c i arg1 harg1 arg2 harg2 x0 y)
  unfold GenP.kernelRun0_A
  dsimp only
  exact pieces_ok arg1 harg1 x0 _

end Cert.Nms

end
-- ==== Proof.LibWindowRead.lean ====
/-
  A 3×3 window reduction over the last two axes of a rank-4 array, read at an index.

  The host's `reduce_window` with window (1, 1, 3, 3), unit strides and one element of padding on each side
  of the last two axes folds its body over the nine window positions in row-major order, an element of the
  operand where the position is inside it and the initial value where it is padding. Read at the index
  (n, ch, r, c) this is the left fold of the nine "padded reads" at rows r, r + 1, r + 2 and columns c, c + 1,
  c + 2 of the plane (n, ch) in PADDED coordinates: row R of the padded plane is row R − 1 of the operand for
  1 ≤ R ≤ H and padding otherwise, and likewise for columns.
-/
import Idealize.ShloMosaic.PureOps
import Idealize.ShloMosaic.Lib.ValueIdx

noncomputable section

namespace Cert.LibWindowRead

open Idealize.ShloMosaic Idealize.ShloMosaic.ValueIdx

variable {α : Type}

/-- The window's own shape: one position on the two leading axes, three on each of the last two. -/
abbrev Wn : Shape := ⟨4, ![1, 1, 3, 3]⟩

theorem numel_Wn : Wn.numel = 9 := by decide

/-- Row-major position `3 a + b` of the window is the offset `(0, 0, a, b)`. -/
theorem win_pos (k : Fin Wn.numel) (a b : Fin 3) (hk : k.val = 3 * a.val + b.val) :
    Wn.rowMajor.symm k = ix4 (0 : Fin 1) (0 : Fin 1) a b := by
  rw [Equiv.symm_apply_eq]
  apply Fin.ext
  rw [Shape.rowMajor_val_four]
  show k.val = ((0 * 1 + 0) * 3 + a.val) * 3 + b.val
  omega

/-- A left fold over the nine positions, written out. -/
theorem foldl_finRange_nine {β : Type} (m : ℕ) (hm : m = 9) (g : β → Fin m → β) (v : β) :
    (List.finRange m).foldl g v
      = g (g (g (g (g (g (g (g (g v ⟨0, by omega⟩) ⟨1, by omega⟩) ⟨2, by omega⟩) ⟨3, by omega⟩) ⟨4, by omega⟩)
          ⟨5, by omega⟩) ⟨6, by omega⟩) ⟨7, by omega⟩) ⟨8, by omega⟩ := by
  subst hm; rfl

/-- The plane `(n, ch)` of a rank-4 array extended by the value `v`, read at PADDED coordinates: row `R` and
    column `C` of the padded plane are row `R − 1` and column `C − 1` of the array when both are inside it. -/
def padRead {N C H W : ℕ} (x : (⟨4, ![N, C, H, W]⟩ : Shape).Idx → α) (v : α) (n : Fin N) (ch : Fin C) (R Cc : ℕ) : α :=
  if h : (1 ≤ R ∧ R - 1 < H) ∧ (1 ≤ Cc ∧ Cc - 1 < W) then x (ix4 n ch ⟨R - 1, h.1.2⟩ ⟨Cc - 1, h.2.2⟩) else v

/-- The padded read at an inside position is the array's entry. -/
theorem padRead_inside {N C H W : ℕ} (x : (⟨4, ![N, C, H, W]⟩ : Shape).Idx → α) (v : α) (n : Fin N) (ch : Fin C)
    (r : Fin H) (c : Fin W) : padRead x v n ch (r.val + 1) (c.val + 1) = x (ix4 n ch r c) := by
  have hr := r.isLt
  have hc := c.isLt
  unfold padRead
  rw [dif_pos ⟨⟨by omega, by omega⟩, ⟨by omega, by omega⟩⟩]
  exact congrArg x (by
    funext a
    match a with
    | ⟨0, _⟩ => rfl
    | ⟨1, _⟩ => rfl
    | ⟨2, _⟩ => exact Fin.ext (by show r.val + 1 - 1 = r.val; omega)
    | ⟨3, _⟩ => exact Fin.ext (by show c.val + 1 - 1 = c.val; omega))

/-- One window position: the fold's operand at a position whose padded coordinates are `(n, ch, R, Cc)`. -/
theorem window_elem {N C H W : ℕ} (x : (⟨4, ![N, C, H, W]⟩ : Shape).Idx → α) (v : α) (n : Fin N) (ch : Fin C)
    (R Cc : ℕ) (p : Fin 4 → ℕ) (hp0 : p 0 = n.val) (hp1 : p 1 = ch.val) (hp2 : p 2 = R) (hp3 : p 3 = Cc) :
    (if hin : ∀ a : Fin 4, (![0, 0, 1, 1] : Fin 4 → ℕ) a ≤ p a
          ∧ p a - (![0, 0, 1, 1] : Fin 4 → ℕ) a < (⟨4, ![N, C, H, W]⟩ : Shape).size a
        then x (fun a => ⟨p a - (![0, 0, 1, 1] : Fin 4 → ℕ) a, (hin a).2⟩) else v)
      = padRead x v n ch R Cc := by
  unfold padRead
  by_cases hq : (1 ≤ R ∧ R - 1 < H) ∧ (1 ≤ Cc ∧ Cc - 1 < W)
  · have hin : ∀ a : Fin 4, (![0, 0, 1, 1] : Fin 4 → ℕ) a ≤ p a
        ∧ p a - (![0, 0, 1, 1] : Fin 4 → ℕ) a < (⟨4, ![N, C, H, W]⟩ : Shape).size a := fun a =>
      match a with
      | ⟨0, _⟩ => by show 0 ≤ p 0 ∧ p 0 - 0 < N; rw [hp0]; exact ⟨Nat.zero_le _, by have := n.isLt; omega⟩
      | ⟨1, _⟩ => by show 0 ≤ p 1 ∧ p 1 - 0 < C; rw [hp1]; exact ⟨Nat.zero_le _, by have := ch.isLt; omega⟩
      | ⟨2, _⟩ => by show 1 ≤ p 2 ∧ p 2 - 1 < H; rw [hp2]; exact hq.1
      | ⟨3, _⟩ => by show 1 ≤ p 3 ∧ p 3 - 1 < W; rw [hp3]; exact hq.2
    rw [dif_pos hin, dif_pos hq]
    refine congrArg x (funext fun a => ?_)
    match a with
    | ⟨0, _⟩ => exact Fin.ext (by show p 0 - 0 = n.val; rw [hp0]; rfl)
    | ⟨1, _⟩ => exact Fin.ext (by show p 1 - 0 = ch.val; rw [hp1]; rfl)
    | ⟨2, _⟩ => exact Fin.ext (by show p 2 - 1 = R - 1; rw [hp2])
    | ⟨3, _⟩ => exact Fin.ext (by show p 3 - 1 = Cc - 1; rw [hp3])
  · rw [dif_neg hq, dif_neg]
    intro hin
    apply hq
    have h2 := hin 2
    have h3 := hin 3
    refine ⟨?_, ?_⟩
    · rw [← hp2]; exact h2
    · rw [← hp3]; exact h3

/-- THE WINDOW AT AN INDEX: the reduction at `(n, ch, r, c)` is the left fold, from the initial value, of the nine
    padded reads of the plane `(n, ch)` at rows `r, r + 1, r + 2` and columns `c, c + 1, c + 2`, row by row. -/
theorem reduceWindow3x3_apply {N C H W : ℕ} (f : α → α → α) (x : (⟨4, ![N, C, H, W]⟩ : Shape).Idx → α)
    (init : (⟨0, ![]⟩ : Shape).Idx → α)
    (h : (⟨4, ![N, C, H, W]⟩ : Shape).ReduceWindows ![1, 1, 3, 3] ![1, 1, 1, 1] ![0, 0, 1, 1] ![0, 0, 1, 1]
      ⟨4, ![N, C, H, W]⟩)
    (hu : 0 < (⟨0, ![]⟩ : Shape).numel) (n : Fin N) (ch : Fin C) (r : Fin H) (c : Fin W) :
    Host.reduceWindow f ![1, 1, 3, 3] ![1, 1, 1, 1] ![0, 0, 1, 1] ![0, 0, 1, 1] x init h hu (ix4 n ch r c)
      = f (f (f (f (f (f (f (f (f (init ix0)
          (padRead x (init ix0) n ch r.val c.val)) (padRead x (init ix0) n ch r.val (c.val + 1)))
          (padRead x (init ix0) n ch r.val (c.val + 2))) (padRead x (init ix0) n ch (r.val + 1) c.val))
          (padRead x (init ix0) n ch (r.val + 1) (c.val + 1))) (padRead x (init ix0) n ch (r.val + 1) (c.val + 2)))
          (padRead x (init ix0) n ch (r.val + 2) c.val)) (padRead x (init ix0) n ch (r.val + 2) (c.val + 1)))
          (padRead x (init ix0) n ch (r.val + 2) (c.val + 2)) := by
  have hv : init (Shape.Idx.first hu) = init ix0 := congrArg init (funext fun a => a.elim0)
  unfold Host.reduceWindow
  dsimp only
  rw [hv, foldl_finRange_nine _ numel_Wn]
  have e0 := win_pos ⟨0, by rw [numel_Wn]; omega⟩ 0 0 rfl
  have e1 := win_pos ⟨1, by rw [numel_Wn]; omega⟩ 0 1 rfl
  have e2 := win_pos ⟨2, by rw [numel_Wn]; omega⟩ 0 2 rfl
  have e3 := win_pos ⟨3, by rw [numel_Wn]; omega⟩ 1 0 rfl
  have e4 := win_pos ⟨4, by rw [numel_Wn]; omega⟩ 1 1 rfl
  have e5 := win_pos ⟨5, by rw [numel_Wn]; omega⟩ 1 2 rfl
  have e6 := win_pos ⟨6, by rw [numel_Wn]; omega⟩ 2 0 rfl
  have e7 := win_pos ⟨7, by rw [numel_Wn]; omega⟩ 2 1 rfl
  have e8 := win_pos ⟨8, by rw [numel_Wn]; omega⟩ 2 2 rfl
  refine congrArg₂ f (congrArg₂ f (congrArg₂ f (congrArg₂ f (congrArg₂ f (congrArg₂ f (congrArg₂ f (congrArg₂ f
    (congrArg₂ f rfl ?_) ?_) ?_) ?_) ?_) ?_) ?_) ?_) ?_
  · exact window_elem x _ n ch _ _ _ (by show n.val * 1 + _ = _; rw [e0]; show n.val * 1 + 0 = _; omega)
      (by show ch.val * 1 + _ = _; rw [e0]; show ch.val * 1 + 0 = _; omega)
      (by show r.val * 1 + _ = _; rw [e0]; show r.val * 1 + 0 = _; omega)
      (by show c.val * 1 + _ = _; rw [e0]; show c.val * 1 + 0 = _; omega)
  · exact window_elem x _ n ch _ _ _ (by show n.val * 1 + _ = _; rw [e1]; show n.val * 1 + 0 = _; omega)
      (by show ch.val * 1 + _ = _; rw [e1]; show ch.val * 1 + 0 = _; omega)
      (by show r.val * 1 + _ = _; rw [e1]; show r.val * 1 + 0 = _; omega)
      (by show c.val * 1 + _ = _; rw [e1]; show c.val * 1 + 1 = _; omega)
  · exact window_elem x _ n ch _ _ _ (by show n.val * 1 + _ = _; rw [e2]; show n.val * 1 + 0 = _; omega)
      (by show ch.val * 1 + _ = _; rw [e2]; show ch.val * 1 + 0 = _; omega)
      (by show r.val * 1 + _ = _; rw [e2]; show r.val * 1 + 0 = _; omega)
      (by show c.val * 1 + _ = _; rw [e2]; show c.val * 1 + 2 = _; omega)
  · exact window_elem x _ n ch _ _ _ (by show n.val * 1 + _ = _; rw [e3]; show n.val * 1 + 0 = _; omega)
      (by show ch.val * 1 + _ = _; rw [e3]; show ch.val * 1 + 0 = _; omega)
      (by show r.val * 1 + _ = _; rw [e3]; show r.val * 1 + 1 = _; omega)
      (by show c.val * 1 + _ = _; rw [e3]; show c.val * 1 + 0 = _; omega)
  · exact window_elem x _ n ch _ _ _ (by show n.val * 1 + _ = _; rw [e4]; show n.val * 1 + 0 = _; omega)
      (by show ch.val * 1 + _ = _; rw [e4]; show ch.val * 1 + 0 = _; omega)
      (by show r.val * 1 + _ = _; rw [e4]; show r.val * 1 + 1 = _; omega)
      (by show c.val * 1 + _ = _; rw [e4]; show c.val * 1 + 1 = _; omega)
  · exact window_elem x _ n ch _ _ _ (by show n.val * 1 + _ = _; rw [e5]; show n.val * 1 + 0 = _; omega)
      (by show ch.val * 1 + _ = _; rw [e5]; show ch.val * 1 + 0 = _; omega)
      (by show r.val * 1 + _ = _; rw [e5]; show r.val * 1 + 1 = _; omega)
      (by show c.val * 1 + _ = _; rw [e5]; show c.val * 1 + 2 = _; omega)
  · exact window_elem x _ n ch _ _ _ (by show n.val * 1 + _ = _; rw [e6]; show n.val * 1 + 0 = _; omega)
      (by show ch.val * 1 + _ = _; rw [e6]; show ch.val * 1 + 0 = _; omega)
      (by show r.val * 1 + _ = _; rw [e6]; show r.val * 1 + 2 = _; omega)
      (by show c.val * 1 + _ = _; rw [e6]; show c.val * 1 + 0 = _; omega)
  · exact window_elem x _ n ch _ _ _ (by show n.val * 1 + _ = _; rw [e7]; show n.val * 1 + 0 = _; omega)
      (by show ch.val * 1 + _ = _; rw [e7]; show ch.val * 1 + 0 = _; omega)
      (by show r.val * 1 + _ = _; rw [e7]; show r.val * 1 + 2 = _; omega)
      (by show c.val * 1 + _ = _; rw [e7]; show c.val * 1 + 1 = _; omega)
  · exact window_elem x _ n ch _ _ _ (by show n.val * 1 + _ = _; rw [e8]; show n.val * 1 + 0 = _; omega)
      (by show ch.val * 1 + _ = _; rw [e8]; show ch.val * 1 + 0 = _; omega)
      (by show r.val * 1 + _ = _; rw [e8]; show r.val * 1 + 2 = _; omega)
      (by show c.val * 1 + _ = _; rw [e8]; show c.val * 1 + 2 = _; omega)

end Cert.LibWindowRead

end
-- ==== Proof.RefValue.lean ====
/-
  The reference is the filter, plane by plane.

  The reference reduces every 3×3 window of the array, padded by −∞ on the two plane axes, by `max` from −∞
  (`reduce_window`), compares the result with the array, converts the bit to a float and multiplies the array by it.
  At an index `(n, ch, r, c)` the window fold is the neighbourhood's maximum of plane `(n, ch)` (Proof/LibWindowRead.lean,
  then `fold9_eq_winMax`), and `x · [m = x]` is `x` where the comparison holds and `x · 0 = 0` where it does not — on the
  extended reals the product with zero is zero for every `x`, so nothing here needs the entries to be finite.
  The kernel works on the same data as a stack of 640 planes: `nms_reshape` says that filtering the stack and viewing
  the result as the rank-4 array is the rank-4 filter.
-/
import proofs.«151072_g90855738179815_cont_sun_c4_584_9_alg».proof.Proof.Gen.ReferenceIdeal.Read
import proofs.«151072_g90855738179815_cont_sun_c4_584_9_alg».proof.Proof.Spec
import proofs.«151072_g90855738179815_cont_sun_c4_584_9_alg».proof.Proof.LibWindowRead
import Idealize.ShloMosaic.PureOps.Ideal.Laws
import Idealize.ShloMosaic.Lib.Pipeline.Value

set_option maxRecDepth 16384

noncomputable section

namespace Cert.Nms

open Idealize.ShloMosaic Idealize.ShloMosaic.ValueIdx Cert.LibWindowRead

/-- THE FILTER on the rank-4 array: plane `(n, ch)` filtered on its own. -/
def nms4 (x : (⟨4, ![8, 80, 256, 256]⟩ : Shape).Idx → EReal) : (⟨4, ![8, 80, 256, 256]⟩ : Shape).Idx → EReal :=
  fun j => keepAt (padRead x ⊥ (j 0) (j 1)) (j 2).val (j 3).val

theorem nms4_apply (x : (⟨4, ![8, 80, 256, 256]⟩ : Shape).Idx → EReal) (n : Fin 8) (ch : Fin 80) (r c : Fin 256) :
    nms4 x (ix4 n ch r c) = keepAt (padRead x ⊥ n ch) r.val c.val := rfl

/-- The reference's `x · float(m == x)` on extended reals. -/
theorem mul_oeq (W X : EReal) :
    FloatOps.mulf (F := Ideal) (φ := .f32) X
        (FloatOps.uitofp (F := Ideal) .f32 (FloatOps.cmpf (F := Ideal) (φ := .f32) .oeq W X))
      = if W = X then X else 0 := by
  show X * (((BitVec.ofBool (decide (W = X))).toNat : ℝ) : EReal) = _
  by_cases h : W = X
  · rw [if_pos h]; simp [h]
  · rw [if_neg h]; simp [h]

/-- THE REFERENCE IS THE FILTER. -/
theorem ref_is_nms (x : (⟨4, ![8, 80, 256, 256]⟩ : Shape).Idx → EReal) :
    Cert.ReferenceIdeal.Read.val_main_v4 (F := Ideal) x = nms4 x := by
  funext j
  obtain ⟨n, ch, r, c, rfl⟩ : ∃ (n : Fin 8) (ch : Fin 80) (r : Fin 256) (c : Fin 256), j = ix4 n ch r c :=
    ⟨j 0, j 1, j 2, j 3, eq_ix4 j⟩
  rw [Cert.ReferenceIdeal.Read.val_main_v4_apply, Cert.ReferenceIdeal.Read.val_main_v3_apply,
    Cert.ReferenceIdeal.Read.val_main_v2_apply]
  have h0 : Cert.ReferenceIdeal.Read.val_main_v0 (F := Ideal) ix0 = (⊥ : EReal) := by
    rw [Cert.ReferenceIdeal.Read.val_main_v0_apply, Cert.ReferenceIdeal.Read.val_main_cst_apply]
    show Ideal.ofBits .f32 0xFF800000#32 = ⊥
    simp [Ideal.ofBits, Ideal.ieee]
  have hw : Cert.ReferenceIdeal.Read.val_main_v1 (F := Ideal) x (ix4 n ch r c) = winMax (padRead x ⊥ n ch) r.val c.val := by
    unfold Cert.ReferenceIdeal.Read.val_main_v1
    rw [reduceWindow3x3_apply, h0]
    exact fold9_eq_winMax _ _ _
  rw [hw, mul_oeq, nms4_apply]
  unfold keepAt
  rw [padRead_inside]

/-- Filtering the stack of 640 planes and viewing the result as the rank-4 array is the rank-4 filter. -/
theorem nms_reshape (x : (⟨4, ![8, 80, 256, 256]⟩ : Shape).Idx → EReal)
    (h1 : (⟨4, ![8, 80, 256, 256]⟩ : Shape).ShapeCasts ⟨3, ![640, 256, 256]⟩)
    (h2 : (⟨3, ![640, 256, 256]⟩ : Shape).ShapeCasts ⟨4, ![8, 80, 256, 256]⟩) :
    shapeCast ⟨4, ![8, 80, 256, 256]⟩ (nms (shapeCast ⟨3, ![640, 256, 256]⟩ x h1)) h2 = nms4 x := by
  funext j
  obtain ⟨n, ch, r, c, rfl⟩ : ∃ (n : Fin 8) (ch : Fin 80) (r : Fin 256) (c : Fin 256), j = ix4 n ch r c :=
    ⟨j 0, j 1, j 2, j 3, eq_ix4 j⟩
  have hn := n.isLt
  have hch := ch.isLt
  rw [shapeCast_apply _ h2 (ix4 n ch r c) (ix3 (⟨n.val * 80 + ch.val, by omega⟩ : Fin 640) r c) (by
    rw [Shape.rowMajor_val_three, Shape.rowMajor_val_four]
    show ((n.val * 80 + ch.val) * 256 + r.val) * 256 + c.val = ((n.val * 80 + ch.val) * 256 + r.val) * 256 + c.val
    rfl), nms_apply, nms4_apply]
  congr 1
  funext R Cc
  unfold padPlane padRead
  by_cases hq : (1 ≤ R ∧ R - 1 < 256) ∧ (1 ≤ Cc ∧ Cc - 1 < 256)
  · rw [dif_pos hq, dif_pos hq]
    exact shapeCast_apply _ h1 _ _ (by
      rw [Shape.rowMajor_val_three, Shape.rowMajor_val_four]
      show ((n.val * 80 + ch.val) * 256 + (R - 1)) * 256 + (Cc - 1) = ((n.val * 80 + ch.val) * 256 + (R - 1)) * 256 + (Cc - 1)
      rfl)
  · rw [dif_neg hq, dif_neg hq]

end Cert.Nms

end
-- ==== Proof.ArrayValue.lean ====
/-
  From the blocks to the array, and through the two reshapes: the kernel's result is the rank-4 filter.

  Grid point `t` stages planes `32 t … 32 t + 31` of the stack of 640 planes and writes back the filter on that block.
  The filter treats every plane on its own, so the filter on a block of planes is the block of the filter on the stack
  (`nms_restrict`); the 20 blocks tile the stack, so the output array ends holding the filter on the input array
  (the value library's whole-array post). The stack the region finds is the host's reshape of the argument, and the
  result is the host's reshape of the output array back to rank 4: by `nms_reshape` that is the rank-4 filter of the
  argument, which is what the reference computes.
-/
import proofs.«151072_g90855738179815_cont_sun_c4_584_9_alg».proof.Proof.BlockValue
import proofs.«151072_g90855738179815_cont_sun_c4_584_9_alg».proof.Proof.RefValue
import Idealize.ShloMosaic.Lib.StableHlo.Run

set_option maxRecDepth 16384

noncomputable section

namespace Cert.Nms

open Idealize.ShloMosaic Idealize.ShloMosaic.ValueIdx Idealize.ShloMosaic.TcCoe Idealize.SL.Sem
open Idealize.ShloMosaic.StableHlo
open Cert.KernelIdeal Cert.KernelIdeal.Gen

variable (m : (ℓ : Loc nD τ sig) → Buf (Elt Ideal) ℓ) (ρ : Dev nD → PrngReg)

/-- The filter on a sub-stack of planes is the filter on the stack at those planes. -/
theorem nms_restrict {P Q : ℕ} (A : (⟨3, ![Q, 256, 256]⟩ : Shape).Idx → EReal) (B : (⟨3, ![P, 256, 256]⟩ : Shape).Idx → EReal)
    (e : Fin P → Fin Q) (hB : ∀ (p : Fin P) (r c : Fin 256), B (ix3 p r c) = A (ix3 (e p) r c))
    (p : Fin P) (r c : Fin 256) : nms B (ix3 p r c) = nms A (ix3 (e p) r c) := by
  rw [nms_apply, nms_apply]
  congr 1
  funext R C
  unfold padPlane
  by_cases hq : (1 ≤ R ∧ R - 1 < 256) ∧ (1 ≤ C ∧ C - 1 < 256)
  · rw [dif_pos hq, dif_pos hq, hB]
  · rw [dif_neg hq, dif_neg hq]

/-- The printed index maps over the grid: both windows' block `t` starts at plane `32 t`, row 0, column 0. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- What point `t` leaves in the output's staging buffer: the filter on its input block. -/
theorem outsAt_eq (c : Dev nD) (t : Fin cfg0.N) :
    GenP.outsAt0 m c t = nms (P := 32) (iblk m c 0 t) := by
  unfold GenP.outsAt0
  exact out_eq c (grid0.coords t) (ms0_0 t) (hs0_0 t) (ms0_1 t) (hs0_1 t) (iblk m c 0 t)

/-- WHAT POINT `t` WRITES BACK is block `t` of the filter on the stack the region finds. -/
theorem flushed_eq (c : Dev nD) (t : Fin cfg0.N) :
    (GenP.dats m 0 c).flushed 1 t
      = ((cfg0.win 1).blk t).view.read (Elt Ideal) (nms (P := 640) (V m c main_v0)) := by
  have hN : cfg0.N = 20 := N_0
  have ht := t.isLt
  obtain ⟨e0, e1, e2, e3, e4, e5⟩ := idx_facts t
  show (cfg0.win 1).cut (grid0.coords t) ((GenP.dats m 0 c).after 1 t) = _
  rw [GenP.after0_1, outsAt_eq]
  funext j
  show nms (P := 32) (iblk m c 0 t) j = nms (P := 640) (V m c main_v0) (((cfg0.win 1).blk t).view.emb j)
  obtain ⟨p, r, cc, rfl⟩ : ∃ (p : Fin 32) (r : Fin 256) (cc : Fin 256), j = ix3 p r cc := ⟨j 0, j 1, j 2, eq_ix3 j⟩
  have hp := p.isLt
  have hemb : ((cfg0.win 1).blk t).view.emb (ix3 p r cc) = ix3 (⟨t.val * 32 + p.val, by omega⟩ : Fin 640) r cc := by
    funext a
    apply Fin.ext
    match a with
    | ⟨0, _⟩ => show win0_1.index t (0 : Fin 3) * 32 + 1 * p.val = t.val * 32 + p.val; rw [e3]; omega
    | ⟨1, _⟩ => show win0_1.index t (1 : Fin 3) * 256 + 1 * r.val = r.val; rw [e4]; omega
    | ⟨2, _⟩ => show win0_1.index t (2 : Fin 3) * 256 + 1 * cc.val = cc.val; rw [e5]; omega
  rw [hemb]
  refine nms_restrict (V m c main_v0) (iblk m c 0 t) (fun p => ⟨t.val * 32 + p.val, by have := p.isLt; omega⟩) ?_ p r cc
  intro p' r' c'
  have hp' := p'.isLt
  show V m c main_v0 (((cfg0.win 0).blk t).view.emb (ix3 p' r' c')) = _
  congr 1
  funext a
  apply Fin.ext
  match a with
  | ⟨0, _⟩ => show win0_0.index t (0 : Fin 3) * 32 + 1 * p'.val = t.val * 32 + p'.val; rw [e0]; omega
  | ⟨1, _⟩ => show win0_0.index t (1 : Fin 3) * 256 + 1 * r'.val = r'.val; rw [e1]; omega
  | ⟨2, _⟩ => show win0_0.index t (2 : Fin 3) * 256 + 1 * c'.val = c'.val; rw [e2]; omega

/-- An index of the stack is in point `t`'s block iff each coordinate is in the block's range on its axis. -/
theorem mem_blk (t : Fin cfg0.N) (i : S640x256x256.Idx) :
    i ∈ ((cfg0.win 1).blk t).view.set ↔ ∀ a : Fin 3, win0_1.index t a * S32x256x256.size a ≤ (i a).val
      ∧ (i a).val < win0_1.index t a * S32x256x256.size a + S32x256x256.size a := by
  show i ∈ ((View.whole main_v1).slice (win0_1.rect t)).set ↔ _
  rw [View.set_slice_whole, Rect.mem_set_unit]
  exact Iff.rfl

/-- THE OUTPUT ARRAY after the region: the filter on the stack the region finds (the 20 blocks tile it). -/
theorem final (c : Dev nD) : (GenP.dats m 0 c).arrAt 1 cfg0.N = nms (P := 640) (V m c main_v0) :=
  (GenP.dats m 0 c).arrAt_eq_of_cover 1 (nms (P := 640) (V m c main_v0)) (fun t _ => flushed_eq m c t) fun i => by
    have hN : cfg0.N = 20 := N_0
    have hi0 : (i 0).val < 640 := (i 0).isLt
    have hi1 : (i 1).val < 256 := (i 1).isLt
    have hi2 : (i 2).val < 256 := (i 2).isLt
    refine ⟨⟨(i 0).val / 32, by omega⟩, flush0_1 _, ?_⟩
    obtain ⟨e0, e1, e2, e3, e4, e5⟩ := idx_facts ⟨(i 0).val / 32, by omega⟩
    rw [mem_blk]
    intro a
    match a with
    | ⟨0, _⟩ =>
      show win0_1.index _ (0 : Fin 3) * 32 ≤ (i 0).val ∧ (i 0).val < win0_1.index _ (0 : Fin 3) * 32 + 32
      rw [e3]; show (i 0).val / 32 * 32 ≤ (i 0).val ∧ (i 0).val < (i 0).val / 32 * 32 + 32; omega
    | ⟨1, _⟩ =>
      show win0_1.index _ (1 : Fin 3) * 256 ≤ (i 1).val ∧ (i 1).val < win0_1.index _ (1 : Fin 3) * 256 + 256
      rw [e4]; omega
    | ⟨2, _⟩ =>
      show win0_1.index _ (2 : Fin 3) * 256 ≤ (i 2).val ∧ (i 2).val < win0_1.index _ (2 : Fin 3) * 256 + 256
      rw [e5]; omega

/-- The stack the region finds is the host's reshape of the argument. -/
theorem V_main_v0 (c : Dev nD) :
    (V m c main_v0 : S640x256x256.Idx → EReal)
      = shapeCast S640x256x256 (m ((c : Thread nD τ).loc main_arg0)) Gen.shapeCasts_S8x80x256x256_S640x256x256 := by
  show StableHlo.after hostOps0 (fun b => m (c, b)) (Proc.devRef .tc main_v0) = _
  after_results
  rfl

end Cert.Nms

end
-- ==== Proof.KernelRun.lean ====
/-
  The idealized kernel's run: the result buffer ends at the rank-4 filter of the argument.

  The frame run gives every array of the pipeline at what the library computes from the proof data (the output array
  at `final`), and every other buffer as the host lines after the region leave it. The one such line reshapes the
  output array back to rank 4; with the array the filter on the reshaped argument, `nms_reshape` makes the result the
  rank-4 filter of the argument. The argument itself is written by no line.
-/
import proofs.«151072_g90855738179815_cont_sun_c4_584_9_alg».proof.Proof.ArrayValue

set_option maxRecDepth 16384

noncomputable section

namespace Cert.Nms

open Idealize.ShloMosaic Idealize.ShloMosaic.ValueIdx Idealize.ShloMosaic.TcCoe Idealize.SL.Sem
open Idealize.ShloMosaic.StableHlo
open Cert.KernelIdeal Cert.KernelIdeal.Gen

variable (m : (ℓ : Loc nD τ sig) → Buf (Elt Ideal) ℓ) (ρ : Dev nD → PrngReg)

/-- What the line after the region leaves in the result buffer: the output array viewed at rank 4. -/
theorem tail_eq (c : Dev nD) :
    (Pipeline.afterTail₀ cfgs (GenP.dats m) 0 (V0 m) [hostOps1] c main_v2 : S8x80x256x256.Idx → EReal)
      = nms4 (m ((c : Thread nD τ).loc main_arg0)) := by
  unfold Pipeline.afterTail₀
  show StableHlo.after hostOps1 _ (Proc.devRef .tc main_v2) = _
  after_results
  have hw : Pipeline.withArrays (cfgs 0).spec c (V0 m c) (fun w => (GenP.dats m 0 c).arrAt w (cfgs 0).N)
      (Proc.devRef .tc main_v1) = nms (P := 640) (V m c main_v0) :=
    (Pipeline.withArrays_arr spec0 launch0.win.arr_inj c _ _ 1).trans (final m c)
  funext i
  show shapeCast S8x80x256x256 (Pipeline.withArrays (cfgs 0).spec c (V0 m c)
    (fun w => (GenP.dats m 0 c).arrAt w (cfgs 0).N) (Proc.devRef .tc main_v1)) Gen.shapeCasts_S640x256x256_S8x80x256x256 i = _
  rw [hw, V_main_v0]
  exact congrFun (nms_reshape _ _ _) i

/-- THE KERNEL'S RUN at the ideal instance: every weakly fair execution terminates with the result buffer at the rank-4
    filter of the argument, and the argument as launched. -/
theorem kernel_run : θ_run defs (onTc (τ := τ) (main (F := Ideal))) ⟨m, fun _ => 0, ρ⟩ (fun r => ∀ c : Dev nD,
      r.2.mem ((c.tc : Thread nD τ).loc main_v2) = nms4 (m ((c.tc : Thread nD τ).loc main_arg0))
      ∧ r.2.mem ((c.tc : Thread nD τ).loc main_arg0) = m ((c.tc : Thread nD τ).loc main_arg0)) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (GenP.dats m) c)⟩)
    (GenP.run_main m ρ)

end Cert.Nms

end
-- ==== Proof.lean ====
/-
  Non-maximum suppression by a 3×3 maximum filter: the Pallas kernel against the `reduce_window` reference.

  Both programs map an array of 8 × 80 planes of 256 × 256 entries to the array that keeps an entry where it equals
  the maximum of its 3×3 neighbourhood (the neighbours that exist) and holds zero elsewhere.

  * The reference folds `max` from −∞ over each window of the array padded by −∞, compares the result with the
    array, and multiplies the array by the comparison's bit as a float (`x · 1 = x`, `x · 0 = 0`).
  * The kernel views the array as a stack of 640 planes, stages 32 planes per grid point, and for each plane handles
    four slabs of 64 rows: it loads the slab with one more row above and below where those exist, takes each row's
    three-neighbour maximum with −∞ beyond the lane ends, takes the maximum of three consecutive such rows with the
    first and last row duplicated at the plane's edges, and selects the entry or zero.

  At the ideal instance every entry is an extended real and `max` is the lattice join: associative, commutative,
  idempotent, with −∞ its identity. Those laws alone make the separable, edge-duplicating maximum equal to the window
  fold (Proof/Spec.lean), and `select (m = x) x 0` equal to `x · [m = x]` for EVERY extended real `x` — so the
  precondition that the inputs are finite is never opened.

  The modules: Proof/Spec.lean (the filter as one function of a padded plane reader), Proof/LibWindowRead.lean (the
  reference's window at an index), Proof/RefValue.lean (the reference is the filter), Proof/LibEdgeMax.lean and
  Proof/Slab.lean (the kernel's slab computation at an index), Proof/Payloads.lean (each stored slab is the filter on
  the plane), Proof/TripsIdeal.lean and Proof/TripsBits.lean (what the loop over a block's planes stores),
  Proof/BlockValue.lean (the output block is the filter on the input block), Proof/ArrayValue.lean (from blocks to the
  array) and Proof/KernelRun.lean (through the reshapes: the kernel's run).
-/
import proofs.«151072_g90855738179815_cont_sun_c4_584_9_alg».proof.Defs
import proofs.«151072_g90855738179815_cont_sun_c4_584_9_alg».proof.Proof.Gen.Kernel
import proofs.«151072_g90855738179815_cont_sun_c4_584_9_alg».proof.Proof.Gen.KernelIdeal
import proofs.«151072_g90855738179815_cont_sun_c4_584_9_alg».proof.Proof.Gen.ReferenceIdeal
import proofs.«151072_g90855738179815_cont_sun_c4_584_9_alg».proof.Proof.Gen.Pre_finite_inputs
import proofs.«151072_g90855738179815_cont_sun_c4_584_9_alg».proof.Proof.Gen.ReferenceIdeal.Run
import proofs.«151072_g90855738179815_cont_sun_c4_584_9_alg».proof.Proof.Gen.ReferenceIdeal.Read
import proofs.«151072_g90855738179815_cont_sun_c4_584_9_alg».proof.Proof.PatchedFrameBits
import proofs.«151072_g90855738179815_cont_sun_c4_584_9_alg».proof.Proof.PatchedFrameIdeal
import proofs.«151072_g90855738179815_cont_sun_c4_584_9_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and leaves its argument as launched. -/
theorem frame_k : Cert.frame_Kernel (hKernel := Cert.Kernel.Gen.facts) (hPre_finite_inputs := Cert.Pre_finite_inputs.Gen.facts) :=
  fun m ρ _ => Cert.Kernel.GenP.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.GenP.frame m ρ

/-- The reference is a straight line of host operations: its run, with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- At the ideal instance both programs end with the rank-4 filter of the argument: the kernel by `Nms.kernel_run`,
    the reference by its run read back and `Nms.ref_is_nms`; the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.Nms.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.Nms.ref_is_nms, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
